-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x64 : Shape := ⟨3, ![8, 1024, 64]⟩
abbrev S64x1024 : Shape := ⟨2, ![64, 1024]⟩
abbrev S1024 : Shape := ⟨1, ![1024]⟩
abbrev S_ : Shape := ⟨0, ![]⟩

class Facts : Prop where
  bcast_S_S8x1024x64 : S_.BroadcastsInDim S8x1024x64 (![] : Fin 0 → Fin S8x1024x64.rank)
  reducesTo_S8x1024x64_S_d0_1_2 : S8x1024x64.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x64 .f32) (main_arg1 : FVec F S64x1024 .f32) (main_arg2 : FVec F S64x1024 .f32) (main_arg3 : FVec F S1024 .f32) (main_arg4 : FVec F S1024 .f32) : IVec S_ 1 :=
  let main_v0 : FVec F S8x1024x64 .f32 := Host.absf main_arg0
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  let main_c : IVec S_ 1 := constantI S_ 1 1#1
  let main_v3 : IVec S_ 1 := (fun x v => Host.reduce IntOp.andi x v reducesTo_S8x1024x64_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8x1024x64 : Shape := ⟨3, ![8, 1024, 64]⟩
abbrev S64x1024 : Shape := ⟨2, ![64, 1024]⟩
abbrev S1024 : Shape := ⟨1, ![1024]⟩
abbrev S1x1024 : Shape := ⟨2, ![1, 1024]⟩
abbrev S8x64x1024 : Shape := ⟨3, ![8, 64, 1024]⟩
abbrev S1x1024x64 : Shape := ⟨3, ![1, 1024, 64]⟩
abbrev S1x64x1024 : Shape := ⟨3, ![1, 64, 1024]⟩
abbrev S1024x64 : Shape := ⟨2, ![1024, 64]⟩
abbrev S64 : Shape := ⟨1, ![64]⟩
abbrev S64x1 : Shape := ⟨2, ![64, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x64, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x64x1024, .f32⟩
  | .local _ .vmem, ⟨0, _⟩ => ⟨S1x1024x64, .f32⟩
  | .local _ .vmem, ⟨1, _⟩ => ⟨S1x1024x64, .f32⟩
  | .local _ .vmem, ⟨2, _⟩ => ⟨S64x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x64x1024, .f32⟩
  | .local _ .vmem, ⟨7, _⟩ => ⟨S1x64x1024, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  slices_S64x1024_S1x1024_1_0 : S64x1024.Slices ![1, 0] S1x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  reduces_S64x1024_S64 : S64x1024.Reduces [1] S64
  shapeCasts_S64_S64x1 : S64.ShapeCasts S64x1
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x1024x64.size a
  hwx0_0 : ∀ i : grid0.Coords, EltTy.bits .f32 = 32 ∨ (Rect.block (s := S8x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S8x64x1024.size a
  hwx0_5 : ∀ i : grid0.Coords, EltTy.bits .f32 = 32 ∨ (Rect.block (s := S8x64x1024) S1x64x1024.size (cc0_transform_5 i) (hinb0_5 i)).WholeWords (EltTy.packing .f32)

variable [Facts₀]

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x64 : Shape := ⟨3, ![8, 1024, 64]⟩
abbrev S64x1024 : Shape := ⟨2, ![64, 1024]⟩
abbrev S1024 : Shape := ⟨1, ![1024]⟩
abbrev S64 : Shape := ⟨1, ![64]⟩
abbrev S8x64 : Shape := ⟨2, ![8, 64]⟩
abbrev S_ : Shape := ⟨0, ![]⟩
abbrev S8x64x1 : Shape := ⟨3, ![8, 64, 1]⟩
abbrev S1 : Shape := ⟨1, ![1]⟩
abbrev S1x1x1 : Shape := ⟨3, ![1, 1, 1]⟩
abbrev S8x64x1024 : Shape := ⟨3, ![8, 64, 1024]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S64, .i32⟩
  | .hbm, ⟨6, _⟩ => ⟨S8x64, .i32⟩
  | .hbm, ⟨7, _⟩ => ⟨S_, .i32⟩
  | .hbm, ⟨8, _⟩ => ⟨S8x64, .i32⟩
  | .hbm, ⟨9, _⟩ => ⟨S_, .i32⟩
  | .hbm, ⟨10, _⟩ => ⟨S8x64, .i32⟩
  | .hbm, ⟨11, _⟩ => ⟨S8x64, .i1⟩
  | .hbm, ⟨12, _⟩ => ⟨S_, .i32⟩
  | .hbm, ⟨13, _⟩ => ⟨S8x64, .i32⟩
  | .hbm, ⟨14, _⟩ => ⟨S8x64, .i32⟩
  | .hbm, ⟨15, _⟩ => ⟨S8x64, .i32⟩
  | .hbm, ⟨16, _⟩ => ⟨S8x64x1, .i32⟩
  | .hbm, ⟨17, _⟩ => ⟨S1, .i32⟩
  | .hbm, ⟨18, _⟩ => ⟨S_, .i32⟩
  | .hbm, ⟨19, _⟩ => ⟨S8x64x1, .i32⟩
  | .hbm, ⟨20, _⟩ => ⟨S8x64x1, .i1⟩
  | .hbm, ⟨21, _⟩ => ⟨S1x1x1, .i32⟩
  | .hbm, ⟨22, _⟩ => ⟨S8x64x1, .i32⟩
  | .hbm, ⟨23, _⟩ => ⟨S8x64x1, .i1⟩
  | .hbm, ⟨24, _⟩ => ⟨S8x64x1, .i1⟩
  | .hbm, ⟨25, _⟩ => ⟨S_, .i1⟩
  | .hbm, ⟨26, _⟩ => ⟨S8x64, .i1⟩
  | .hbm, ⟨27, _⟩ => ⟨S8x64x1024, .f32⟩
  | .hbm, ⟨28, _⟩ => ⟨S8x64x1024, .i1⟩
  | .hbm, ⟨29, _⟩ => ⟨S_, .f32⟩
  | .hbm, ⟨30, _⟩ => ⟨S8x64x1024, .f32⟩
  | .hbm, ⟨31, _⟩ => ⟨S8x64x1024, .f32⟩
  | .hbm, ⟨32, _⟩ => ⟨S_, .i32⟩
  | .hbm, ⟨33, _⟩ => ⟨S8x64, .i32⟩
  | .hbm, ⟨34, _⟩ => ⟨S8x64, .i1⟩
  | .hbm, ⟨35, _⟩ => ⟨S_, .i32⟩
  | .hbm, ⟨36, _⟩ => ⟨S8x64, .i32⟩
  | .hbm, ⟨37, _⟩ => ⟨S8x64, .i32⟩
  | .hbm, ⟨38, _⟩ => ⟨S8x64, .i32⟩
  | .hbm, ⟨39, _⟩ => ⟨S8x64x1, .i32⟩
  | .hbm, ⟨40, _⟩ => ⟨S1, .i32⟩
  | .hbm, ⟨41, _⟩ => ⟨S_, .i32⟩
  | .hbm, ⟨42, _⟩ => ⟨S8x64x1, .i32⟩
  | .hbm, ⟨43, _⟩ => ⟨S8x64x1, .i1⟩
  | .hbm, ⟨44, _⟩ => ⟨S1x1x1, .i32⟩
  | .hbm, ⟨45, _⟩ => ⟨S8x64x1, .i32⟩
  | .hbm, ⟨46, _⟩ => ⟨S8x64x1, .i1⟩
  | .hbm, ⟨47, _⟩ => ⟨S8x64x1, .i1⟩
  | .hbm, ⟨48, _⟩ => ⟨S_, .i1⟩
  | .hbm, ⟨49, _⟩ => ⟨S8x64, .i1⟩
  | .hbm, ⟨50, _⟩ => ⟨S8x64x1024, .f32⟩
  | .hbm, ⟨51, _⟩ => ⟨S8x64x1024, .i1⟩
  | .hbm, ⟨52, _⟩ => ⟨S_, .f32⟩
  | .hbm, ⟨53, _⟩ => ⟨S8x64x1024, .f32⟩
  | .hbm, ⟨54, _⟩ => ⟨S8x64x1024, .f32⟩
  | .hbm, ⟨55, _⟩ => ⟨S8x64x1024, .f32⟩
  | .hbm, ⟨56, _⟩ => ⟨S8x64x1024, .f32⟩
  | .hbm, ⟨57, _⟩ => ⟨S8x64x1024, .f32⟩
  | .hbm, ⟨58, _⟩ => ⟨S_, .f32⟩
  | .hbm, ⟨59, _⟩ => ⟨S8x64, .f32⟩
  | .hbm, ⟨60, _⟩ => ⟨S8x64x1, .f32⟩
  | .hbm, ⟨61, _⟩ => ⟨S_, .f32⟩
  | .hbm, ⟨62, _⟩ => ⟨S8x64x1, .f32⟩
  | .hbm, ⟨63, _⟩ => ⟨S8x64x1, .f32⟩
  | .hbm, ⟨64, _⟩ => ⟨S_, .i32⟩
  | .hbm, ⟨65, _⟩ => ⟨S_, .f32⟩
  | .hbm, ⟨66, _⟩ => ⟨S8x64, .f32⟩
  | .hbm, ⟨67, _⟩ => ⟨S8x64x1, .f32⟩
  | .hbm, ⟨68, _⟩ => ⟨S_, .f32⟩
  | .hbm, ⟨69, _⟩ => ⟨S8x64x1, .f32⟩
  | .hbm, ⟨70, _⟩ => ⟨S8x64x1, .f32⟩
  | .hbm, ⟨71, _⟩ => ⟨S8x64x1024, .f32⟩
  | .hbm, ⟨72, _⟩ => ⟨S8x64x1024, .f32⟩
  | .hbm, ⟨73, _⟩ => ⟨S8x64x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x64, .f32⟩
  | .hbm, ⟨79, _⟩ => ⟨S8x64x1, .f32⟩
  | .hbm, ⟨80, _⟩ => ⟨S8x64x1, .f32⟩
  | .hbm, ⟨81, _⟩ => ⟨S8x64x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S8x64x1, .f32⟩
  | .hbm, ⟨87, _⟩ => ⟨S8x64x1, .f32⟩
  | .hbm, ⟨88, _⟩ => ⟨S8x64x1024, .f32⟩
  | .hbm, ⟨89, _⟩ => ⟨S8x64x1024, .f32⟩
  | .hbm, ⟨90, _⟩ => ⟨S_, .f32⟩
  | .hbm, ⟨91, _⟩ => ⟨S8x64x1, .f32⟩
  | .hbm, ⟨92, _⟩ => ⟨S8x64x1, .f32⟩
  | .hbm, ⟨93, _⟩ => ⟨S8x64x1, .f32⟩
  | .hbm, ⟨94, _⟩ => ⟨S8x64x1024, .f32⟩
  | .hbm, ⟨95, _⟩ => ⟨S8x64x1024, .f32⟩
  | .hbm, ⟨96, _⟩ => ⟨S1x1x1024, .f32⟩
  | .hbm, ⟨97, _⟩ => ⟨S8x64x1024, .f32⟩
  | .hbm, ⟨98, _⟩ => ⟨S8x64x1024, .f32⟩
  | .hbm, ⟨99, _⟩ => ⟨S1x1x1024, .f32⟩
  | .hbm, ⟨100, _⟩ => ⟨S8x64x1024, .f32⟩
  | .hbm, ⟨101, _⟩ => ⟨S8x64x1024, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_c_1 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_cst_1 : Ref sig .tc := ⟨.hbm, 75, rfl⟩
abbrev main_call2_v8 : Ref sig .tc := ⟨.hbm, 76, rfl⟩
abbrev main_call2_cst_2 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_cst_3 : Ref sig .tc := ⟨.hbm, 82, rfl⟩
abbrev main_call2_v13 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_2 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩

abbrev nD : Nat := 1
abbrev τ : Topo := Topo.v7x

variable {F : FTy → Type} [FloatOps F]

class Facts₀ : Prop where
  bcast_S64_S8x64_1 : S64.BroadcastsInDim S8x64 (![1] : Fin 1 → Fin S8x64.rank)
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  reducesTo_S8x64x1_S8x64_d2 : S8x64x1.ReducesTo [2] S8x64
  h_S_ : 0 < S_.numel
  bcast_S8x64_S8x64x1024_0_1 : S8x64.BroadcastsInDim S8x64x1024 (![0, 1] : Fin 2 → Fin S8x64x1024.rank)
  bcast_S_S8x64x1024 : S_.BroadcastsInDim S8x64x1024 (![] : Fin 0 → Fin S8x64x1024.rank)
  transposes_S8x1024x64_S8x64x1024_0_2_1 : S8x1024x64.Transposes [0, 2, 1] S8x64x1024
  reducesTo_S8x64x1024_S8x64_d2 : S8x64x1024.ReducesTo [2] S8x64
  bcast_S8x64x1_S8x64x1024_0_1_2 : S8x64x1.BroadcastsInDim S8x64x1024 (![0, 1, 2] : Fin 3 → Fin S8x64x1024.rank)
  bcast_S1024_S1x1x1024_2 : S1024.BroadcastsInDim S1x1x1024 (![2] : Fin 1 → Fin S1x1x1024.rank)
  bcast_S1x1x1024_S8x64x1024_0_1_2 : S1x1x1024.BroadcastsInDim S8x64x1024 (![0, 1, 2] : Fin 3 → Fin S8x64x1024.rank)
  gather_S64x1024_S8x64x1_S8x64x1024_2_0_n_n_0_2_11024_wf : GatherDims.WF S64x1024 S8x64x1 S8x64x1024 [2] [0] [] [0] [] 2 ![1, 1024]

variable [Facts₀]

def gather_S64x1024_S8x64x1_S8x64x1024_2_0_n_n_0_2_11024 : GatherDims S64x1024 S8x64x1 S8x64x1024 where
  offsetDims := [2]
  collapsedSliceDims := [0]
  operandBatchingDims := []
  startIndicesBatchingDims := []
  startIndexMap := [0]
  indexVectorDim := 2
  sliceSizes := ![1, 1024]
  wf := gather_S64x1024_S8x64x1_S8x64x1024_2_0_n_n_0_2_11024_wf

class Facts : Prop extends Facts₀ where

variable [Facts]
-- ==== Proof.LnSpec.lean ====
/-
  Layer normalisation of one row of extended reals, in the two spellings this certificate compares, and the facts
  that make them one function.

  A row `e : Fin 1024 → EReal` has mean `(∑ e) / n` and variance `(∑ (e - mean)²) / n` with `n = 1024`; the
  normalised row is `(e - mean) · (var + ε)^(-1/2) · γ + β`.  One spelling multiplies by the reciprocal square
  root, the other divides by the square root.  A square of an extended real is never negative (`⊥ · ⊥ = ⊤`),
  so a sum of squares divided by a positive real is never negative, and adding the positive `ε` makes the
  radicand strictly positive: there `x · rsqrt v = x / sqrt v` for every extended real `x`, the case `v = ⊤`
  included (both sides are `0`).  No finiteness of the row is used.
-/
import Idealize.ShloMosaic.PureOps.Ideal.Laws
import Idealize.ShloMosaic.Lib.ValueIdx

noncomputable section

namespace Cert.LnSpec

open Idealize.ShloMosaic Idealize.ShloMosaic.ValueIdx

/-- The row length as the float both programs spell, `1024.0`. -/
def cN : EReal := Ideal.ofBits .f32 0x44800000#32
/-- The stabiliser both programs spell, the float nearest `1e-12`. -/
def cEps : EReal := Ideal.ofBits .f32 0x2B8CBCCC#32

/-- `1024.0` denotes the real `1024`. -/
theorem cN_eq : cN = ((1024 : ℝ) : EReal) := by
  unfold cN
  simp [Ideal.ofBits, Ideal.ieee, -EReal.coe_mul]; norm_num

theorem cN_pos : 0 < cN := by rw [cN_eq]; exact EReal.coe_pos.mpr (by norm_num)

/-- The stabiliser is a positive real. -/
theorem cEps_pos : 0 < cEps := by
  unfold cEps
  simp [Ideal.ofBits, Ideal.ieee, -EReal.coe_mul]

/-- A square is never negative on the extended reals. -/
theorem mul_self_nonneg (x : EReal) : 0 ≤ x * x :=
  EReal.mul_nonneg_iff.mpr ((le_total 0 x).imp (fun h => ⟨h, h⟩) (fun h => ⟨h, h⟩))

/-- A quantity that is not negative, divided by the row length, is not negative. -/
theorem div_cN_nonneg {s : EReal} (hs : 0 ≤ s) : 0 ≤ Ideal.div s cN := by
  rw [cN_eq, Ideal.div_coe (by norm_num : (1024 : ℝ) ≠ 0)]
  exact EReal.mul_nonneg hs (EReal.coe_nonneg.mpr (by norm_num))

/-- On a positive radicand, multiplying by the reciprocal square root is dividing by the square root. -/
theorem mul_rsqrt_eq_div_sqrt (x v : EReal) (hv : 0 < v) : x * Ideal.rsqrt v = Ideal.div x (Ideal.sqrt v) := by
  induction v using EReal.rec with
  | bot => exact absurd hv (not_lt_bot)
  | top => simp [Ideal.div]
  | coe r =>
    have hr : 0 < r := EReal.coe_pos.mp hv
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

/-! ## One row -/

/-- The mean of a row. -/
def mean (e : Fin 1024 → EReal) : EReal := Ideal.div (∑ k, e k) cN
/-- The variance of a row about its mean. -/
def var (e : Fin 1024 → EReal) : EReal := Ideal.div (∑ k, (e k - mean e) * (e k - mean e)) cN
/-- The normalised row, by the reciprocal square root. -/
def ln (e : Fin 1024 → EReal) (g b : EReal) (h : Fin 1024) : EReal :=
  (e h - mean e) * Ideal.rsqrt (var e + cEps) * g + b
/-- The normalised row, by a quotient. -/
def lnQ (e : Fin 1024 → EReal) (g b : EReal) (h : Fin 1024) : EReal :=
  Ideal.div (e h - mean e) (Ideal.sqrt (var e + cEps)) * g + b

theorem var_nonneg (e : Fin 1024 → EReal) : 0 ≤ var e :=
  div_cN_nonneg (Finset.sum_nonneg fun k _ => mul_self_nonneg _)

/-- The two spellings are one function. -/
theorem ln_eq_lnQ (e : Fin 1024 → EReal) (g b : EReal) (h : Fin 1024) : ln e g b h = lnQ e g b h := by
  unfold ln lnQ
  rw [mul_rsqrt_eq_div_sqrt _ _ (lt_of_lt_of_le cEps_pos (le_add_of_nonneg_left (var_nonneg e)))]

/-! ## The whole array -/

/-- Row `(b, s)` before normalisation: the input transposed, plus the position row `s`, plus token-type row `1`. -/
def emb (x : FVec Ideal ⟨3, ![8, 1024, 64]⟩ .f32) (pos tok : FVec Ideal ⟨2, ![64, 1024]⟩ .f32)
    (b : Fin 8) (s : Fin 64) (h : Fin 1024) : EReal :=
  x (ix3 b h s) + (pos (ix2 s h) + tok (ix2 (1 : Fin 64) h))

/-- The result array: each row normalised, scaled by `γ` and shifted by `β` along the last axis. -/
def G (x : FVec Ideal ⟨3, ![8, 1024, 64]⟩ .f32) (pos tok : FVec Ideal ⟨2, ![64, 1024]⟩ .f32)
    (gam bet : FVec Ideal ⟨1, ![1024]⟩ .f32) : FVec Ideal ⟨3, ![8, 64, 1024]⟩ .f32 :=
  fun i => ln (emb x pos tok (i 0) (i 1)) (gam (ix1 (i 2))) (bet (ix1 (i 2))) (i 2)

theorem G_apply (x : FVec Ideal ⟨3, ![8, 1024, 64]⟩ .f32) (pos tok : FVec Ideal ⟨2, ![64, 1024]⟩ .f32)
    (gam bet : FVec Ideal ⟨1, ![1024]⟩ .f32) (b : Fin 8) (s : Fin 64) (h : Fin 1024) :
    G x pos tok gam bet (ix3 b s h) = ln (emb x pos tok b s) (gam (ix1 h)) (bet (ix1 h)) h := rfl

end Cert.LnSpec

end
-- ==== Proof.LnKernel.lean ====
/-
  What the kernel's output array holds after the run, as one function of the five argument arrays.

  Grid point `t` handles batch element `t`: it loads the `[1, 1024, 64]` block of the input, transposes it to
  `[64, 1024]`, adds the position table and the broadcast token-type row, and normalises each of the 64 rows over its
  1024 entries.  Read at an index `(s, h)` of the block, the two lane sums are sums over `k : Fin 1024` of the row
  `s`, so the block is the row-wise layer normalisation of `Cert.LnSpec`.  The eight blocks tile the output array,
  and the three small operands are a reshape of `γ`, a reshape of `β` and row `1` of the token-type table.
-/
import proofs.«172034_g45715631898817_cont_8to1c4_635_6_alg».proof.Proof.Gen.KernelIdeal.Value
import proofs.«172034_g45715631898817_cont_8to1c4_635_6_alg».proof.Proof.LnSpec
import Idealize.ShloMosaic.Lib.ValueIdx
import Idealize.ShloMosaic.Lib.Pipeline.Value
import Idealize.ShloMosaic.PureOps.Ideal.Laws
import Idealize.ShloMosaic.Lib.StableHlo.Run

noncomputable section

namespace Cert.KernelIdeal.LnValue

open Cert.KernelIdeal Cert.KernelIdeal.Gen Idealize.ShloMosaic Idealize.ShloMosaic.TcCoe Idealize.SL.Sem
open Idealize.ShloMosaic.ValueIdx Cert.LnSpec
open Idealize.ShloMosaic.Pipeline (Dat)

/-! ## One block -/

/-- The index of `[64, 1024]` over row `s` with `k` inserted on the lane axis. -/
theorem lift_row (h : S64x1024.Reduces [1] S64) (s : Fin 64) (k : Fin 1024) : h.lift (ix1 s) k = ix2 s k := by
  funext d
  apply Fin.ext
  refine (h.lift_val (ix1 s) k d).trans ?_
  unfold Shape.Reduces.liftVal
  match d with
  | ⟨0, _⟩ => rw [dif_neg (by show ¬((0 : ℕ) = 1); omega), dif_pos (by show (0 : ℕ) < 1; omega)]
  | ⟨1, _⟩ => rw [dif_pos (by show (1 : ℕ) = 1; rfl)]

/-- A lane sum of a `[64, 1024]` block at row `s`: the sum of the row's entries. -/
theorem sum_row (src : FVec Ideal S64x1024 .f32) (h : S64x1024.Reduces [1] S64) (hφ : FKind.Formats .f32)
    (hacc : (0x00000000#32 : BitVec 32) = FKind.add.neutral .f32 hφ) (s : Fin 64) :
    multiReduction .add [1] S64 src 0x00000000#32 h hφ hacc (ix1 s) = ∑ k : Fin 1024, src (ix2 s k) := by
  refine (Ideal.multiReduction_add_single src _ h hφ hacc (ix1 s)).trans ?_
  exact Finset.sum_congr rfl fun k _ => congrArg src (lift_row h s k)

/-- The block before normalisation: the input block transposed, plus the position block, plus the token row. -/
def pre (P0 : Vec Ideal S1x1024x64 .f32) (P1 : Vec Ideal S64x1024 .f32) (P2 : Vec Ideal S1x1024 .f32) :
    FVec Ideal S64x1024 .f32 :=
  addf (transpose S64x1024 [1, 0] (shapeCast S1024x64 P0 shapeCasts_S1x1024x64_S1024x64) transposes_S1024x64_p1_0_S64x1024)
    (addf P1 (broadcastTo S64x1024 (shapeCast S1x1024 P2 shapeCasts_S1x1024_S1x1024) broadcasts_S1x1024_S64x1024))

/-- The row of the block at `s`, entry by entry. -/
def row (P0 : Vec Ideal S1x1024x64 .f32) (P1 : Vec Ideal S64x1024 .f32) (P2 : Vec Ideal S1x1024 .f32) (s : Fin 64)
    (k : Fin 1024) : EReal :=
  P0 (ix3 (0 : Fin 1) k s) + (P1 (ix2 s k) + P2 (ix2 (0 : Fin 1) k))

theorem pre_apply (P0 : Vec Ideal S1x1024x64 .f32) (P1 : Vec Ideal S64x1024 .f32) (P2 : Vec Ideal S1x1024 .f32)
    (s : Fin 64) (k : Fin 1024) : pre P0 P1 P2 (ix2 s k) = row P0 P1 P2 s k := by
  have e1 : transpose S64x1024 [1, 0] (shapeCast S1024x64 P0 shapeCasts_S1x1024x64_S1024x64) transposes_S1024x64_p1_0_S64x1024 (ix2 s k)
      = P0 (ix3 (0 : Fin 1) k s) := by
    refine (transpose_apply [1, 0] _ _ (ix2 s k) (ix2 k s) (fun b => match b with | ⟨0, _⟩ => rfl | ⟨1, _⟩ => rfl)).trans ?_
    refine shapeCast_apply _ _ (ix2 k s) (ix3 (0 : Fin 1) k s) ?_
    rw [Shape.rowMajor_val_three, Shape.rowMajor_val_two]
    show (0 * 1024 + k.val) * 64 + s.val = k.val * 64 + s.val
    omega
  have e2 : broadcastTo S64x1024 (shapeCast S1x1024 P2 shapeCasts_S1x1024_S1x1024) broadcasts_S1x1024_S64x1024 (ix2 s k)
      = P2 (ix2 (0 : Fin 1) k) := by
    refine (broadcastTo_apply _ _ (ix2 s k) (ix2 (0 : Fin 1) k) (fun a => match a with
      | ⟨0, _⟩ => by show (0 : ℕ) = if (1 : ℕ) = 1 then 0 else s.val; rw [if_pos rfl]
      | ⟨1, _⟩ => by show k.val = if (1024 : ℕ) = 1 then 0 else k.val; rw [if_neg (by decide)])).trans ?_
    exact shapeCast_apply _ _ (ix2 (0 : Fin 1) k) (ix2 (0 : Fin 1) k) rfl
  show transpose S64x1024 [1, 0] (shapeCast S1024x64 P0 shapeCasts_S1x1024x64_S1024x64) transposes_S1024x64_p1_0_S64x1024 (ix2 s k)
      + (P1 (ix2 s k) + broadcastTo S64x1024 (shapeCast S1x1024 P2 shapeCasts_S1x1024_S1x1024) broadcasts_S1x1024_S64x1024 (ix2 s k)) = _
  rw [e1, e2]; rfl

/-- The first lane sum. -/
def sum1 (P0 : Vec Ideal S1x1024x64 .f32) (P1 : Vec Ideal S64x1024 .f32) (P2 : Vec Ideal S1x1024 .f32) : FVec Ideal S64 .f32 :=
  multiReduction .add [1] S64 (pre P0 P1 P2) 0x00000000#32 reduces_S64x1024_S64 (.inl rfl) rfl

theorem sum1_apply (P0 : Vec Ideal S1x1024x64 .f32) (P1 : Vec Ideal S64x1024 .f32) (P2 : Vec Ideal S1x1024 .f32) (s : Fin 64) :
    sum1 P0 P1 P2 (ix1 s) = ∑ k : Fin 1024, row P0 P1 P2 s k :=
  (sum_row (pre P0 P1 P2) reduces_S64x1024_S64 (.inl rfl) rfl s).trans
    (Finset.sum_congr rfl fun k _ => pre_apply P0 P1 P2 s k)

/-- A column `[64]` viewed `[64, 1]`, put through a pointwise map and repeated along the lanes, read at `(s, k)`. -/
theorem col_apply (w : FVec Ideal S64x1 .f32) (s : Fin 64) (k : Fin 1024) :
    broadcastTo S64x1024 w broadcasts_S64x1_S64x1024 (ix2 s k) = w (ix2 s (0 : Fin 1)) :=
  broadcastTo_apply _ _ (ix2 s k) (ix2 s (0 : Fin 1)) (fun a => match a with
    | ⟨0, _⟩ => by show s.val = if (64 : ℕ) = 1 then 0 else s.val; rw [if_neg (by decide)]
    | ⟨1, _⟩ => by show (0 : ℕ) = if (1 : ℕ) = 1 then 0 else k.val; rw [if_pos rfl])

theorem cast_col_apply (v : FVec Ideal S64 .f32) (s : Fin 64) :
    shapeCast S64x1 v shapeCasts_S64_S64x1 (ix2 s (0 : Fin 1)) = v (ix1 s) :=
  shapeCast_apply _ _ (ix2 s (0 : Fin 1)) (ix1 s) (by
    rw [Shape.rowMajor_val_one, Shape.rowMajor_val_two]
    show s.val = s.val * 1 + 0
    omega)

/-- The block minus its row means. -/
def cen (P0 : Vec Ideal S1x1024x64 .f32) (P1 : Vec Ideal S64x1024 .f32) (P2 : Vec Ideal S1x1024 .f32) : FVec Ideal S64x1024 .f32 :=
  subf (pre P0 P1 P2) (broadcastTo S64x1024 (divf (shapeCast S64x1 (sum1 P0 P1 P2) shapeCasts_S64_S64x1)
    (broadcast S64x1 (Scalar.ofBits .f32 0x44800000#32))) broadcasts_S64x1_S64x1024)

theorem cen_apply (P0 : Vec Ideal S1x1024x64 .f32) (P1 : Vec Ideal S64x1024 .f32) (P2 : Vec Ideal S1x1024 .f32)
    (s : Fin 64) (k : Fin 1024) : cen P0 P1 P2 (ix2 s k) = row P0 P1 P2 s k - mean (row P0 P1 P2 s) := by
  show pre P0 P1 P2 (ix2 s k) - broadcastTo S64x1024 (divf (shapeCast S64x1 (sum1 P0 P1 P2) shapeCasts_S64_S64x1)
    (broadcast S64x1 (Scalar.ofBits .f32 0x44800000#32))) broadcasts_S64x1_S64x1024 (ix2 s k) = _
  rw [pre_apply, col_apply]
  show _ - Ideal.div (shapeCast S64x1 (sum1 P0 P1 P2) shapeCasts_S64_S64x1 (ix2 s (0 : Fin 1))) cN = _
  rw [cast_col_apply, sum1_apply]; rfl

/-- The second lane sum. -/
def sum2 (P0 : Vec Ideal S1x1024x64 .f32) (P1 : Vec Ideal S64x1024 .f32) (P2 : Vec Ideal S1x1024 .f32) : FVec Ideal S64 .f32 :=
  multiReduction .add [1] S64 (mulf (cen P0 P1 P2) (cen P0 P1 P2)) 0x00000000#32 reduces_S64x1024_S64 (.inl rfl) rfl

theorem sum2_apply (P0 : Vec Ideal S1x1024x64 .f32) (P1 : Vec Ideal S64x1024 .f32) (P2 : Vec Ideal S1x1024 .f32) (s : Fin 64) :
    sum2 P0 P1 P2 (ix1 s)
      = ∑ k : Fin 1024, (row P0 P1 P2 s k - mean (row P0 P1 P2 s)) * (row P0 P1 P2 s k - mean (row P0 P1 P2 s)) :=
  (sum_row (mulf (cen P0 P1 P2) (cen P0 P1 P2)) reduces_S64x1024_S64 (.inl rfl) rfl s).trans
    (Finset.sum_congr rfl fun k _ => by
      show cen P0 P1 P2 (ix2 s k) * cen P0 P1 P2 (ix2 s k) = _
      rw [cen_apply])

/-- The block the body leaves, read at `(0, s, h)`: row `s` of the block normalised, at lane `h`. -/
theorem E5_apply (P0 : Vec Ideal S1x1024x64 .f32) (P1 : Vec Ideal S64x1024 .f32) (P2 P3 P4 : Vec Ideal S1x1024 .f32)
    (u : Fin 1) (s : Fin 64) (h : Fin 1024) :
    Value.E5 (F := Ideal) P0 P1 P2 P3 P4 (ix3 u s h)
      = ln (row P0 P1 P2 s) (P3 (ix2 (0 : Fin 1) h)) (P4 (ix2 (0 : Fin 1) h)) h := by
  have i0 : Value.ix5_0 (ix3 u s h) = ix3 (0 : Fin 1) h s := by
    funext a; match a with | ⟨0, _⟩ => rfl | ⟨1, _⟩ => rfl | ⟨2, _⟩ => rfl
  have i1 : Value.ix5_1 (ix3 u s h) = ix2 s h := by
    funext a; match a with | ⟨0, _⟩ => rfl | ⟨1, _⟩ => rfl
  have i2 : Value.ix5_2 (ix3 u s h) = ix2 (0 : Fin 1) h := by
    funext a; match a with | ⟨0, _⟩ => rfl | ⟨1, _⟩ => rfl
  have i3 : Value.ix5_3 (ix3 u s h) = ix1 s := by
    funext a; match a with | ⟨0, _⟩ => rfl
  have i4 : Value.ix5_4 (ix3 u s h) = ix1 s := by
    funext a; match a with | ⟨0, _⟩ => rfl
  have i5 : Value.ix5_5 (ix3 u s h) = ix2 (0 : Fin 1) h := by
    funext a; match a with | ⟨0, _⟩ => rfl | ⟨1, _⟩ => rfl
  have i6 : Value.ix5_6 (ix3 u s h) = ix2 (0 : Fin 1) h := by
    funext a; match a with | ⟨0, _⟩ => rfl | ⟨1, _⟩ => rfl
  show (P0 (Value.ix5_0 (ix3 u s h)) + (P1 (Value.ix5_1 (ix3 u s h)) + P2 (Value.ix5_2 (ix3 u s h)))
        - Ideal.div (sum1 P0 P1 P2 (Value.ix5_3 (ix3 u s h))) cN)
      * Ideal.rsqrt (Ideal.div (sum2 P0 P1 P2 (Value.ix5_4 (ix3 u s h))) cN + cEps)
      * P3 (Value.ix5_5 (ix3 u s h)) + P4 (Value.ix5_6 (ix3 u s h)) = _
  rw [i0, i1, i2, i3, i4, i5, i6, sum1_apply, sum2_apply]
  rfl

/-! ## The whole array -/

section Arrays

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body's one store leaves in the output block, over any loaded blocks: at `(·, s, h)` row `s` of the
    block normalised, at lane `h`. -/
theorem canon_apply (P0 : Vec Ideal S1x1024x64 .f32) (P1 : Vec Ideal S64x1024 .f32) (P2 P3 P4 : Vec Ideal S1x1024 .f32)
    (u : Fin 1) (s : Fin 64) (h : Fin 1024) :
    out0_5 P0 P1 P2 P3 P4 (ix3 u s h) = ln (row P0 P1 P2 s) (P3 (ix2 (0 : Fin 1) h)) (P4 (ix2 (0 : Fin 1) h)) h := by
  unfold out0_5
  rw [View.ld_unit_zero (S := S1x1024x64) zeros3, View.ld_unit_zero (S := S64x1024) zeros2,
    View.ld_unit_zero (S := S1x1024) zeros2, View.ld_unit_zero (S := S1x1024) zeros2,
    View.ld_unit_zero (S := S1x1024) zeros2, Value.canon5_eq]
  exact E5_apply P0 P1 P2 P3 P4 u s h

/-- The printed index maps over the grid: point `t` is batch element `t` of the input and of the output, and the
    other four windows stay at block `0`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a batch index. -/
def batchOf (t : Fin cfg0.N) : Fin 8 := ⟨t.val, lt_of_lt_of_eq t.isLt N_0⟩

/-- The scale as the region finds it: `γ` viewed `[1, 1024]`. -/
theorem V_gamma (c : Dev nD) (k : Fin 1024) :
    (V m c main_v0 : S1x1024.Idx → EReal) (ix2 (0 : Fin 1) k) = m ((c : Thread nD τ).loc main_arg3) (ix1 k) := by
  have e : (V m c main_v0 : S1x1024.Idx → EReal)
      = shapeCast S1x1024 (m ((c : Thread nD τ).loc main_arg3)) shapeCasts_S1024_S1x1024 := by
    dsimp only [Gen.V, Gen.hostOps0]; after_results <;> rfl
  rw [e]
  refine shapeCast_apply _ _ (ix2 (0 : Fin 1) k) (ix1 k) ?_
  rw [Shape.rowMajor_val_one, Shape.rowMajor_val_two]
  show k.val = 0 * 1024 + k.val
  omega

/-- The shift as the region finds it: `β` viewed `[1, 1024]`. -/
theorem V_beta (c : Dev nD) (k : Fin 1024) :
    (V m c main_v1 : S1x1024.Idx → EReal) (ix2 (0 : Fin 1) k) = m ((c : Thread nD τ).loc main_arg4) (ix1 k) := by
  have e : (V m c main_v1 : S1x1024.Idx → EReal)
      = shapeCast S1x1024 (m ((c : Thread nD τ).loc main_arg4)) shapeCasts_S1024_S1x1024 := by
    dsimp only [Gen.V, Gen.hostOps0]; after_results <;> rfl
  rw [e]
  refine shapeCast_apply _ _ (ix2 (0 : Fin 1) k) (ix1 k) ?_
  rw [Shape.rowMajor_val_one, Shape.rowMajor_val_two]
  show k.val = 0 * 1024 + k.val
  omega

/-- The token row as the region finds it: row `1` of the token-type table. -/
theorem V_tok (c : Dev nD) (k : Fin 1024) :
    (V m c main_v2 : S1x1024.Idx → EReal) (ix2 (0 : Fin 1) k) = m ((c : Thread nD τ).loc main_arg2) (ix2 (1 : Fin 64) k) := by
  have e : (V m c main_v2 : S1x1024.Idx → EReal)
      = extractStridedSlice S1x1024 ![1, 0] (m ((c : Thread nD τ).loc main_arg2)) slices_S64x1024_S1x1024_1_0 := by
    dsimp only [Gen.V, Gen.hostOps0]; after_results <;> rfl
  rw [e]
  exact extractStridedSlice_apply _ _ _ (ix2 (0 : Fin 1) k) (ix2 (1 : Fin 64) k) (fun a => match a with
    | ⟨0, _⟩ => rfl
    | ⟨1, _⟩ => by show k.val = 0 + k.val; omega)

/-- The input block at point `t` is batch element `t` of the input. -/
theorem rd0 (c : Dev nD) (t : Fin cfg0.N) (k : Fin 1024) (s : Fin 64) :
    iblk m c 0 t (ix3 (0 : Fin 1) k s) = m ((c : Thread nD τ).loc main_arg0) (ix3 (batchOf t) k s) := by
  show V m c main_arg0 (((cfg0.win 0).blk t).view.emb (ix3 (0 : Fin 1) k s)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 1024 + 1 * k.val = k.val; omega
  | ⟨2, _⟩ => show win0_0.index t (2 : Fin 3) * 64 + 1 * s.val = s.val; omega

/-- The position block is the whole position table. -/
theorem rd1 (c : Dev nD) (t : Fin cfg0.N) (s : Fin 64) (k : Fin 1024) :
    iblk m c 1 t (ix2 s k) = m ((c : Thread nD τ).loc main_arg1) (ix2 s k) := by
  show V m c main_arg1 (((cfg0.win 1).blk t).view.emb (ix2 s k)) = _
  rw [V_main_arg1]
  refine congrArg _ (funext fun a => Fin.ext ?_)
  obtain ⟨-, -, -, e0, e1, -⟩ := idx_facts t
  match a with
  | ⟨0, _⟩ => show win0_1.index t (0 : Fin 2) * 64 + 1 * s.val = s.val; omega
  | ⟨1, _⟩ => show win0_1.index t (1 : Fin 2) * 1024 + 1 * k.val = k.val; omega

/-- The three small blocks are their whole arrays. -/
theorem rd2 (c : Dev nD) (t : Fin cfg0.N) (k : Fin 1024) :
    iblk m c 2 t (ix2 (0 : Fin 1) k) = (V m c main_v2 : S1x1024.Idx → EReal) (ix2 (0 : Fin 1) k) := by
  show V m c main_v2 (((cfg0.win 2).blk t).view.emb (ix2 (0 : Fin 1) k)) = _
  refine congrArg _ (funext fun a => Fin.ext ?_)
  obtain ⟨-, -, -, -, -, e0, e1, -⟩ := idx_facts t
  match a with
  | ⟨0, _⟩ => show win0_2.index t (0 : Fin 2) * 1 + 1 * 0 = 0; omega
  | ⟨1, _⟩ => show win0_2.index t (1 : Fin 2) * 1024 + 1 * k.val = k.val; omega

theorem rd3 (c : Dev nD) (t : Fin cfg0.N) (k : Fin 1024) :
    iblk m c 3 t (ix2 (0 : Fin 1) k) = (V m c main_v0 : S1x1024.Idx → EReal) (ix2 (0 : Fin 1) k) := by
  show V m c main_v0 (((cfg0.win 3).blk t).view.emb (ix2 (0 : Fin 1) k)) = _
  refine congrArg _ (funext fun a => Fin.ext ?_)
  obtain ⟨-, -, -, -, -, -, -, e0, e1, -⟩ := idx_facts t
  match a with
  | ⟨0, _⟩ => show win0_3.index t (0 : Fin 2) * 1 + 1 * 0 = 0; omega
  | ⟨1, _⟩ => show win0_3.index t (1 : Fin 2) * 1024 + 1 * k.val = k.val; omega

theorem rd4 (c : Dev nD) (t : Fin cfg0.N) (k : Fin 1024) :
    iblk m c 4 t (ix2 (0 : Fin 1) k) = (V m c main_v1 : S1x1024.Idx → EReal) (ix2 (0 : Fin 1) k) := by
  show V m c main_v1 (((cfg0.win 4).blk t).view.emb (ix2 (0 : Fin 1) k)) = _
  refine congrArg _ (funext fun a => Fin.ext ?_)
  obtain ⟨-, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 1024 + 1 * k.val = k.val; omega

/-- The argument arrays, named. -/
abbrev argX (c : Dev nD) := m ((c : Thread nD τ).loc main_arg0)
abbrev argPos (c : Dev nD) := m ((c : Thread nD τ).loc main_arg1)
abbrev argTok (c : Dev nD) := m ((c : Thread nD τ).loc main_arg2)
abbrev argGam (c : Dev nD) := m ((c : Thread nD τ).loc main_arg3)
abbrev argBet (c : Dev nD) := m ((c : Thread nD τ).loc main_arg4)

/-- Row `s` of the block at point `t` is row `(t, s)` of the array before normalisation. -/
theorem row_blk (c : Dev nD) (t : Fin cfg0.N) (s : Fin 64) :
    row (iblk m c 0 t) (iblk m c 1 t) (iblk m c 2 t) s = emb (argX m c) (argPos m c) (argTok m c) (batchOf t) s := by
  funext k
  unfold row emb
  rw [rd0, rd1, rd2, V_tok]

/-- Entry `(·, s, h)` of what point `t` leaves in the output block is entry `(t, s, h)` of `G` of the argument arrays. -/
theorem flushed_pt (c : Dev nD) (t : Fin cfg0.N) (u : Fin 1) (s : Fin 64) (h : Fin 1024) :
    out0_5 (iblk m c 0 t) (iblk m c 1 t) (iblk m c 2 t) (iblk m c 3 t) (iblk m c 4 t) (ix3 u s h)
      = G (argX m c) (argPos m c) (argTok m c) (argGam m c) (argBet m c) (((cfg0.win 5).blk t).view.emb (ix3 u s h)) := by
  refine (canon_apply (iblk m c 0 t) (iblk m c 1 t) (iblk m c 2 t) (iblk m c 3 t) (iblk m c 4 t) u s h).trans ?_
  have hemb : ((cfg0.win 5).blk t).view.emb (ix3 u s h) = ix3 (batchOf t) s h := by
    funext a; apply Fin.ext
    obtain ⟨-, -, -, -, -, -, -, -, -, -, -, e0, e1, e2⟩ := idx_facts t
    have h0 : u.val < 1 := u.isLt
    match a with
    | ⟨0, _⟩ => show win0_5.index t (0 : Fin 3) * 1 + 1 * u.val = t.val; omega
    | ⟨1, _⟩ => show win0_5.index t (1 : Fin 3) * 64 + 1 * s.val = s.val; omega
    | ⟨2, _⟩ => show win0_5.index t (2 : Fin 3) * 1024 + 1 * h.val = h.val; omega
  rw [hemb, G_apply, row_blk, rd3, rd4, V_gamma, V_beta]

/-- What point `t` writes back is block `t` of `G` of the argument arrays. -/
theorem flushed_eq (c : Dev nD) (t : Fin cfg0.N) :
    (dats m 0 c).flushed 5 t = ((cfg0.win 5).blk t).view.read (Elt Ideal)
      (G (argX m c) (argPos m c) (argTok m c) (argGam m c) (argBet m c)) := by
  rw [Value.flushed5]
  funext j
  obtain ⟨u, s, h, rfl⟩ : ∃ (u : Fin 1) (s : Fin 64) (h : Fin 1024), j = ix3 u s h := ⟨j 0, j 1, j 2, eq_ix3 j⟩
  exact flushed_pt m c t u s h

/-- An index of the output array is in point `t`'s block iff each coordinate is in the block's range. -/
theorem mem_blk (t : Fin cfg0.N) (i : S8x64x1024.Idx) :
    i ∈ ((cfg0.win 5).blk t).view.set ↔ ∀ a : Fin 3, win0_5.index t a * S1x64x1024.size a ≤ (i a).val
      ∧ (i a).val < win0_5.index t a * S1x64x1024.size a + S1x64x1024.size a := by
  show i ∈ ((View.whole main_v3).slice (win0_5.rect t)).set ↔ _
  rw [View.set_slice_whole, Rect.mem_set_unit]
  exact Iff.rfl

/-- The eight blocks cover the output array: index `(b, s, h)` is in point `b`'s block. -/
theorem cover (i : S8x64x1024.Idx) :
    ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 1024 := (i 2).isLt
  refine ⟨⟨(i 0).val, lt_of_lt_of_eq hi0 N_0.symm⟩, flush0_5 _, ?_⟩
  rw [mem_blk]
  obtain ⟨-, -, -, -, -, -, -, -, -, -, -, e0, e1, e2⟩ := idx_facts ⟨(i 0).val, lt_of_lt_of_eq hi0 N_0.symm⟩
  intro a
  match a with
  | ⟨0, _⟩ =>
    show win0_5.index _ (0 : Fin 3) * 1 ≤ (i 0).val ∧ (i 0).val < win0_5.index _ (0 : Fin 3) * 1 + 1
    rw [e0]; show (i 0).val * 1 ≤ (i 0).val ∧ (i 0).val < (i 0).val * 1 + 1; omega
  | ⟨1, _⟩ =>
    show win0_5.index _ (1 : Fin 3) * 64 ≤ (i 1).val ∧ (i 1).val < win0_5.index _ (1 : Fin 3) * 64 + 64
    rw [e1]; omega
  | ⟨2, _⟩ =>
    show win0_5.index _ (2 : Fin 3) * 1024 ≤ (i 2).val ∧ (i 2).val < win0_5.index _ (2 : Fin 3) * 1024 + 1024
    rw [e2]; omega

/-- The output array after the run is `G` of the argument arrays. -/
theorem final (c : Dev nD) :
    (dats m 0 c).arrAt 5 cfg0.N = G (argX m c) (argPos m c) (argTok m c) (argGam m c) (argBet m c) :=
  (dats m 0 c).arrAt_eq_of_cover 5 _ (fun t _ => flushed_eq m c t) cover

/-- The kernel's run: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v3) = G (argX m c) (argPos m c) (argTok m c) (argGam m c) (argBet m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Arrays

end Cert.KernelIdeal.LnValue

end
-- ==== Proof.LnRefRun.lean ====
/-
  The reference program's run, read back as one composed term of the argument arrays.

  The program is a straight line of host operations once its three helper functions are substituted at their calls:
  two table look-ups (`take`: negative indices wrapped, the rows gathered, entries out of range replaced by a
  not-a-number fill), the sum of the transposed input and the two looked-up arrays, the row means, the variance helper
  (the centred squares summed and divided by the count `1024 - ddof`, guarded by `count > 0`), and the normalisation
  `(e - mean) / sqrt (var + ε) · γ + β`.  The stages are named here so that the next module can read each at an index.
-/
import proofs.«172034_g45715631898817_cont_8to1c4_635_6_alg».proof.Proof.Gen.ReferenceIdeal
import Idealize.ShloMosaic.Lib.StableHlo.Run

noncomputable section

namespace Cert.ReferenceIdeal.LnRun

open Cert.ReferenceIdeal Cert.ReferenceIdeal.Gen Idealize.ShloMosaic Idealize.ShloMosaic.TcCoe Idealize.SL.Sem Idealize.ShloMosaic.StableHlo

variable {F : FTy → Type} [FloatOps F]

/-- The program's 97 operations in order, the helper functions' bodies written out at their calls over each call's own
    buffers. -/
abbrev ops : List (HloOp τ sig (Elt F)) :=
  [ nullary main_v0 (iotaInDim S64 32 0),
    unary main_v0 main_v1 (broadcastInDim S8x64 ![1] bcast_S64_S8x64_1 : (⟨S64, .i32⟩ : BufTy).Contents (Elt F) → (⟨S8x64, .i32⟩ : BufTy).Contents (Elt F)),
    nullary main_c (constantI S_ 32 1#32),
    unary main_c main_v2 (broadcastInDim S8x64 ![] bcast_S_S8x64 : (⟨S_, .i32⟩ : BufTy).Contents (Elt F) → (⟨S8x64, .i32⟩ : BufTy).Contents (Elt F)),
    nullary main_call0_c (constantI S_ 32 0#32),
    unary main_call0_c main_call0_v0 (broadcastInDim S8x64 ![] bcast_S_S8x64 : (⟨S_, .i32⟩ : BufTy).Contents (Elt F) → (⟨S8x64, .i32⟩ : BufTy).Contents (Elt F)),
    binary main_v1 main_call0_v0 main_call0_v1 (cmpi .slt : (⟨S8x64, .i32⟩ : BufTy).Contents (Elt F) → (⟨S8x64, .i32⟩ : BufTy).Contents (Elt F) → (⟨S8x64, .i1⟩ : BufTy).Contents (Elt F)),
    nullary main_call0_c_0 (constantI S_ 32 64#32),
    unary main_call0_c_0 main_call0_v2 (broadcastInDim S8x64 ![] bcast_S_S8x64 : (⟨S_, .i32⟩ : BufTy).Contents (Elt F) → (⟨S8x64, .i32⟩ : BufTy).Contents (Elt F)),
    binary main_v1 main_call0_v2 main_call0_v3 (addi : (⟨S8x64, .i32⟩ : BufTy).Contents (Elt F) → (⟨S8x64, .i32⟩ : BufTy).Contents (Elt F) → (⟨S8x64, .i32⟩ : BufTy).Contents (Elt F)),
    ternary main_call0_v1 main_call0_v3 main_v1 main_call0_v4 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_call0_v4 main_call0_v5 (broadcastInDim S8x64x1 ![0, 1] bcast_S8x64_S8x64x1_0_1 : (⟨S8x64, .i32⟩ : BufTy).Contents (Elt F) → (⟨S8x64x1, .i32⟩ : BufTy).Contents (Elt F)),
    nullary main_call0_c_1 (constantI S1 32 63#32),
    nullary main_call0_c_2 (constantI S_ 32 0#32),
    unary main_call0_c_2 main_call0_v6 (broadcastInDim S8x64x1 ![] bcast_S_S8x64x1 : (⟨S_, .i32⟩ : BufTy).Contents (Elt F) → (⟨S8x64x1, .i32⟩ : BufTy).Contents (Elt F)),
    binary main_call0_v5 main_call0_v6 main_call0_v7 (cmpi .sge : (⟨S8x64x1, .i32⟩ : BufTy).Contents (Elt F) → (⟨S8x64x1, .i32⟩ : BufTy).Contents (Elt F) → (⟨S8x64x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S8x64x1 ![0, 1, 2] bcast_S1x1x1_S8x64x1_0_1_2 : (⟨S1x1x1, .i32⟩ : BufTy).Contents (Elt F) → (⟨S8x64x1, .i32⟩ : BufTy).Contents (Elt F)),
    binary main_call0_v5 main_call0_v9 main_call0_v10 (cmpi .sle : (⟨S8x64x1, .i32⟩ : BufTy).Contents (Elt F) → (⟨S8x64x1, .i32⟩ : BufTy).Contents (Elt F) → (⟨S8x64x1, .i1⟩ : BufTy).Contents (Elt F)),
    binary main_call0_v7 main_call0_v10 main_call0_v11 (andi : (⟨S8x64x1, .i1⟩ : BufTy).Contents (Elt F) → (⟨S8x64x1, .i1⟩ : BufTy).Contents (Elt F) → (⟨S8x64x1, .i1⟩ : BufTy).Contents (Elt F)),
    nullary main_call0_c_3 (constantI S_ 1 1#1),
    binary main_call0_v11 main_call0_c_3 main_call0_v12 (fun x v => Host.reduce IntOp.andi x v reducesTo_S8x64x1_S8x64_d2 h_S_ : (⟨S8x64x1, .i1⟩ : BufTy).Contents (Elt F) → (⟨S_, .i1⟩ : BufTy).Contents (Elt F) → (⟨S8x64, .i1⟩ : BufTy).Contents (Elt F)),
    binary main_arg1 main_call0_v5 main_call0_v13 (fun x i => Host.gather gather_S64x1024_S8x64x1_S8x64x1024_2_0_n_n_0_2_11024 x i : (⟨S64x1024, .f32⟩ : BufTy).Contents (Elt F) → (⟨S8x64x1, .i32⟩ : BufTy).Contents (Elt F) → (⟨S8x64x1024, .f32⟩ : BufTy).Contents (Elt F)),
    unary main_call0_v12 main_call0_v14 (broadcastInDim S8x64x1024 ![0, 1] bcast_S8x64_S8x64x1024_0_1 : (⟨S8x64, .i1⟩ : BufTy).Contents (Elt F) → (⟨S8x64x1024, .i1⟩ : BufTy).Contents (Elt F)),
    nullary main_call0_cst (constant S_ .f32 0x7FC00000#32),
    unary main_call0_cst main_call0_v15 (broadcastInDim S8x64x1024 ![] bcast_S_S8x64x1024 : (⟨S_, .f32⟩ : BufTy).Contents (Elt F) → (⟨S8x64x1024, .f32⟩ : BufTy).Contents (Elt F)),
    ternary main_call0_v14 main_call0_v13 main_call0_v15 main_v3 (select : (⟨S8x64x1024, .i1⟩ : BufTy).Contents (Elt F) → (⟨S8x64x1024, .f32⟩ : BufTy).Contents (Elt F) → (⟨S8x64x1024, .f32⟩ : BufTy).Contents (Elt F) → (⟨S8x64x1024, .f32⟩ : BufTy).Contents (Elt F)),
    nullary main_call1_c (constantI S_ 32 0#32),
    unary main_call1_c main_call1_v0 (broadcastInDim S8x64 ![] bcast_S_S8x64 : (⟨S_, .i32⟩ : BufTy).Contents (Elt F) → (⟨S8x64, .i32⟩ : BufTy).Contents (Elt F)),
    binary main_v2 main_call1_v0 main_call1_v1 (cmpi .slt : (⟨S8x64, .i32⟩ : BufTy).Contents (Elt F) → (⟨S8x64, .i32⟩ : BufTy).Contents (Elt F) → (⟨S8x64, .i1⟩ : BufTy).Contents (Elt F)),
    nullary main_call1_c_0 (constantI S_ 32 64#32),
    unary main_call1_c_0 main_call1_v2 (broadcastInDim S8x64 ![] bcast_S_S8x64 : (⟨S_, .i32⟩ : BufTy).Contents (Elt F) → (⟨S8x64, .i32⟩ : BufTy).Contents (Elt F)),
    binary main_v2 main_call1_v2 main_call1_v3 (addi : (⟨S8x64, .i32⟩ : BufTy).Contents (Elt F) → (⟨S8x64, .i32⟩ : BufTy).Contents (Elt F) → (⟨S8x64, .i32⟩ : BufTy).Contents (Elt F)),
    ternary main_call1_v1 main_call1_v3 main_v2 main_call1_v4 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_call1_v4 main_call1_v5 (broadcastInDim S8x64x1 ![0, 1] bcast_S8x64_S8x64x1_0_1 : (⟨S8x64, .i32⟩ : BufTy).Contents (Elt F) → (⟨S8x64x1, .i32⟩ : BufTy).Contents (Elt F)),
    nullary main_call1_c_1 (constantI S1 32 63#32),
    nullary main_call1_c_2 (constantI S_ 32 0#32),
    unary main_call1_c_2 main_call1_v6 (broadcastInDim S8x64x1 ![] bcast_S_S8x64x1 : (⟨S_, .i32⟩ : BufTy).Contents (Elt F) → (⟨S8x64x1, .i32⟩ : BufTy).Contents (Elt F)),
    binary main_call1_v5 main_call1_v6 main_call1_v7 (cmpi .sge : (⟨S8x64x1, .i32⟩ : BufTy).Contents (Elt F) → (⟨S8x64x1, .i32⟩ : BufTy).Contents (Elt F) → (⟨S8x64x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S8x64x1 ![0, 1, 2] bcast_S1x1x1_S8x64x1_0_1_2 : (⟨S1x1x1, .i32⟩ : BufTy).Contents (Elt F) → (⟨S8x64x1, .i32⟩ : BufTy).Contents (Elt F)),
    binary main_call1_v5 main_call1_v9 main_call1_v10 (cmpi .sle : (⟨S8x64x1, .i32⟩ : BufTy).Contents (Elt F) → (⟨S8x64x1, .i32⟩ : BufTy).Contents (Elt F) → (⟨S8x64x1, .i1⟩ : BufTy).Contents (Elt F)),
    binary main_call1_v7 main_call1_v10 main_call1_v11 (andi : (⟨S8x64x1, .i1⟩ : BufTy).Contents (Elt F) → (⟨S8x64x1, .i1⟩ : BufTy).Contents (Elt F) → (⟨S8x64x1, .i1⟩ : BufTy).Contents (Elt F)),
    nullary main_call1_c_3 (constantI S_ 1 1#1),
    binary main_call1_v11 main_call1_c_3 main_call1_v12 (fun x v => Host.reduce IntOp.andi x v reducesTo_S8x64x1_S8x64_d2 h_S_ : (⟨S8x64x1, .i1⟩ : BufTy).Contents (Elt F) → (⟨S_, .i1⟩ : BufTy).Contents (Elt F) → (⟨S8x64, .i1⟩ : BufTy).Contents (Elt F)),
    binary main_arg2 main_call1_v5 main_call1_v13 (fun x i => Host.gather gather_S64x1024_S8x64x1_S8x64x1024_2_0_n_n_0_2_11024 x i : (⟨S64x1024, .f32⟩ : BufTy).Contents (Elt F) → (⟨S8x64x1, .i32⟩ : BufTy).Contents (Elt F) → (⟨S8x64x1024, .f32⟩ : BufTy).Contents (Elt F)),
    unary main_call1_v12 main_call1_v14 (broadcastInDim S8x64x1024 ![0, 1] bcast_S8x64_S8x64x1024_0_1 : (⟨S8x64, .i1⟩ : BufTy).Contents (Elt F) → (⟨S8x64x1024, .i1⟩ : BufTy).Contents (Elt F)),
    nullary main_call1_cst (constant S_ .f32 0x7FC00000#32),
    unary main_call1_cst main_call1_v15 (broadcastInDim S8x64x1024 ![] bcast_S_S8x64x1024 : (⟨S_, .f32⟩ : BufTy).Contents (Elt F) → (⟨S8x64x1024, .f32⟩ : BufTy).Contents (Elt F)),
    ternary main_call1_v14 main_call1_v13 main_call1_v15 main_v4 (select : (⟨S8x64x1024, .i1⟩ : BufTy).Contents (Elt F) → (⟨S8x64x1024, .f32⟩ : BufTy).Contents (Elt F) → (⟨S8x64x1024, .f32⟩ : BufTy).Contents (Elt F) → (⟨S8x64x1024, .f32⟩ : BufTy).Contents (Elt F)),
    unary main_arg0 main_v5 ((transpose S8x64x1024 [0, 2, 1] · transposes_S8x1024x64_S8x64x1024_0_2_1) : (⟨S8x1024x64, .f32⟩ : BufTy).Contents (Elt F) → (⟨S8x64x1024, .f32⟩ : BufTy).Contents (Elt F)),
    binary main_v5 main_v3 main_v6 (addf : (⟨S8x64x1024, .f32⟩ : BufTy).Contents (Elt F) → (⟨S8x64x1024, .f32⟩ : BufTy).Contents (Elt F) → (⟨S8x64x1024, .f32⟩ : BufTy).Contents (Elt F)),
    binary main_v6 main_v4 main_v7 (addf : (⟨S8x64x1024, .f32⟩ : BufTy).Contents (Elt F) → (⟨S8x64x1024, .f32⟩ : BufTy).Contents (Elt F) → (⟨S8x64x1024, .f32⟩ : BufTy).Contents (Elt F)),
    nullary main_cst (constant S_ .f32 0x00000000#32),
    binary main_v7 main_cst main_v8 (fun x v => Host.reduceAdd x v reducesTo_S8x64x1024_S8x64_d2 h_S_ : (⟨S8x64x1024, .f32⟩ : BufTy).Contents (Elt F) → (⟨S_, .f32⟩ : BufTy).Contents (Elt F) → (⟨S8x64, .f32⟩ : BufTy).Contents (Elt F)),
    unary main_v8 main_v9 (broadcastInDim S8x64x1 ![0, 1] bcast_S8x64_S8x64x1_0_1 : (⟨S8x64, .f32⟩ : BufTy).Contents (Elt F) → (⟨S8x64x1, .f32⟩ : BufTy).Contents (Elt F)),
    nullary main_cst_0 (constant S_ .f32 0x44800000#32),
    unary main_cst_0 main_v10 (broadcastInDim S8x64x1 ![] bcast_S_S8x64x1 : (⟨S_, .f32⟩ : BufTy).Contents (Elt F) → (⟨S8x64x1, .f32⟩ : BufTy).Contents (Elt F)),
    binary main_v9 main_v10 main_v11 (Host.divf : (⟨S8x64x1, .f32⟩ : BufTy).Contents (Elt F) → (⟨S8x64x1, .f32⟩ : BufTy).Contents (Elt F) → (⟨S8x64x1, .f32⟩ : BufTy).Contents (Elt F)),
    nullary main_c_1 (constantI S_ 32 0#32),
    nullary main_call2_cst (constant S_ .f32 0x00000000#32),
    binary main_v7 main_call2_cst main_call2_v0 (fun x v => Host.reduceAdd x v reducesTo_S8x64x1024_S8x64_d2 h_S_ : (⟨S8x64x1024, .f32⟩ : BufTy).Contents (Elt F) → (⟨S_, .f32⟩ : BufTy).Contents (Elt F) → (⟨S8x64, .f32⟩ : BufTy).Contents (Elt F)),
    unary main_call2_v0 main_call2_v1 (broadcastInDim S8x64x1 ![0, 1] bcast_S8x64_S8x64x1_0_1 : (⟨S8x64, .f32⟩ : BufTy).Contents (Elt F) → (⟨S8x64x1, .f32⟩ : BufTy).Contents (Elt F)),
    nullary main_call2_cst_0 (constant S_ .f32 0x44800000#32),
    unary main_call2_cst_0 main_call2_v2 (broadcastInDim S8x64x1 ![] bcast_S_S8x64x1 : (⟨S_, .f32⟩ : BufTy).Contents (Elt F) → (⟨S8x64x1, .f32⟩ : BufTy).Contents (Elt F)),
    binary main_call2_v1 main_call2_v2 main_call2_v3 (Host.divf : (⟨S8x64x1, .f32⟩ : BufTy).Contents (Elt F) → (⟨S8x64x1, .f32⟩ : BufTy).Contents (Elt F) → (⟨S8x64x1, .f32⟩ : BufTy).Contents (Elt F)),
    unary main_call2_v3 main_call2_v4 (broadcastInDim S8x64x1024 ![0, 1, 2] bcast_S8x64x1_S8x64x1024_0_1_2 : (⟨S8x64x1, .f32⟩ : BufTy).Contents (Elt F) → (⟨S8x64x1024, .f32⟩ : BufTy).Contents (Elt F)),
    binary main_v7 main_call2_v4 main_call2_v5 (subf : (⟨S8x64x1024, .f32⟩ : BufTy).Contents (Elt F) → (⟨S8x64x1024, .f32⟩ : BufTy).Contents (Elt F) → (⟨S8x64x1024, .f32⟩ : BufTy).Contents (Elt F)),
    binary main_call2_v5 main_call2_v5 main_call2_v6 (mulf : (⟨S8x64x1024, .f32⟩ : BufTy).Contents (Elt F) → (⟨S8x64x1024, .f32⟩ : BufTy).Contents (Elt F) → (⟨S8x64x1024, .f32⟩ : BufTy).Contents (Elt F)),
    unary main_c_1 main_call2_v7 (sitofp .f32 : (⟨S_, .i32⟩ : BufTy).Contents (Elt F) → (⟨S_, .f32⟩ : BufTy).Contents (Elt F)),
    nullary main_call2_cst_1 (constant S_ .f32 0x44800000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 (fun x v => Host.reduceAdd x v reducesTo_S8x64x1024_S8x64_d2 h_S_ : (⟨S8x64x1024, .f32⟩ : BufTy).Contents (Elt F) → (⟨S_, .f32⟩ : BufTy).Contents (Elt F) → (⟨S8x64, .f32⟩ : BufTy).Contents (Elt F)),
    unary main_call2_v9 main_call2_v10 (broadcastInDim S8x64x1 ![0, 1] bcast_S8x64_S8x64x1_0_1 : (⟨S8x64, .f32⟩ : BufTy).Contents (Elt F) → (⟨S8x64x1, .f32⟩ : BufTy).Contents (Elt F)),
    unary main_call2_v8 main_call2_v11 (broadcastInDim S8x64x1 ![] bcast_S_S8x64x1 : (⟨S_, .f32⟩ : BufTy).Contents (Elt F) → (⟨S8x64x1, .f32⟩ : BufTy).Contents (Elt F)),
    binary main_call2_v10 main_call2_v11 main_call2_v12 (Host.divf : (⟨S8x64x1, .f32⟩ : BufTy).Contents (Elt F) → (⟨S8x64x1, .f32⟩ : BufTy).Contents (Elt F) → (⟨S8x64x1, .f32⟩ : BufTy).Contents (Elt F)),
    nullary main_call2_cst_3 (constant S_ .f32 0x00000000#32),
    binary main_call2_v8 main_call2_cst_3 main_call2_v13 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S8x64x1 ![] bcast_S_S8x64x1 : (⟨S_, .f32⟩ : BufTy).Contents (Elt F) → (⟨S8x64x1, .f32⟩ : BufTy).Contents (Elt F)),
    ternary main_call2_v13 main_call2_v12 main_call2_call0_v1 main_v12 (fun p a b => select (broadcastInDim S8x64x1 ![] bcast_S_S8x64x1 p) a b : (⟨S_, .i1⟩ : BufTy).Contents (Elt F) → (⟨S8x64x1, .f32⟩ : BufTy).Contents (Elt F) → (⟨S8x64x1, .f32⟩ : BufTy).Contents (Elt F) → (⟨S8x64x1, .f32⟩ : BufTy).Contents (Elt F)),
    unary main_v11 main_v13 (broadcastInDim S8x64x1024 ![0, 1, 2] bcast_S8x64x1_S8x64x1024_0_1_2 : (⟨S8x64x1, .f32⟩ : BufTy).Contents (Elt F) → (⟨S8x64x1024, .f32⟩ : BufTy).Contents (Elt F)),
    binary main_v7 main_v13 main_v14 (subf : (⟨S8x64x1024, .f32⟩ : BufTy).Contents (Elt F) → (⟨S8x64x1024, .f32⟩ : BufTy).Contents (Elt F) → (⟨S8x64x1024, .f32⟩ : BufTy).Contents (Elt F)),
    nullary main_cst_2 (constant S_ .f32 0x2B8CBCCC#32),
    unary main_cst_2 main_v15 (broadcastInDim S8x64x1 ![] bcast_S_S8x64x1 : (⟨S_, .f32⟩ : BufTy).Contents (Elt F) → (⟨S8x64x1, .f32⟩ : BufTy).Contents (Elt F)),
    binary main_v12 main_v15 main_v16 (addf : (⟨S8x64x1, .f32⟩ : BufTy).Contents (Elt F) → (⟨S8x64x1, .f32⟩ : BufTy).Contents (Elt F) → (⟨S8x64x1, .f32⟩ : BufTy).Contents (Elt F)),
    unary main_v16 main_v17 (Host.sqrt : (⟨S8x64x1, .f32⟩ : BufTy).Contents (Elt F) → (⟨S8x64x1, .f32⟩ : BufTy).Contents (Elt F)),
    unary main_v17 main_v18 (broadcastInDim S8x64x1024 ![0, 1, 2] bcast_S8x64x1_S8x64x1024_0_1_2 : (⟨S8x64x1, .f32⟩ : BufTy).Contents (Elt F) → (⟨S8x64x1024, .f32⟩ : BufTy).Contents (Elt F)),
    binary main_v14 main_v18 main_v19 (Host.divf : (⟨S8x64x1024, .f32⟩ : BufTy).Contents (Elt F) → (⟨S8x64x1024, .f32⟩ : BufTy).Contents (Elt F) → (⟨S8x64x1024, .f32⟩ : BufTy).Contents (Elt F)),
    unary main_arg3 main_v20 (broadcastInDim S1x1x1024 ![2] bcast_S1024_S1x1x1024_2 : (⟨S1024, .f32⟩ : BufTy).Contents (Elt F) → (⟨S1x1x1024, .f32⟩ : BufTy).Contents (Elt F)),
    unary main_v20 main_v21 (broadcastInDim S8x64x1024 ![0, 1, 2] bcast_S1x1x1024_S8x64x1024_0_1_2 : (⟨S1x1x1024, .f32⟩ : BufTy).Contents (Elt F) → (⟨S8x64x1024, .f32⟩ : BufTy).Contents (Elt F)),
    binary main_v19 main_v21 main_v22 (mulf : (⟨S8x64x1024, .f32⟩ : BufTy).Contents (Elt F) → (⟨S8x64x1024, .f32⟩ : BufTy).Contents (Elt F) → (⟨S8x64x1024, .f32⟩ : BufTy).Contents (Elt F)),
    unary main_arg4 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S8x64x1024 ![0, 1, 2] bcast_S1x1x1024_S8x64x1024_0_1_2 : (⟨S1x1x1024, .f32⟩ : BufTy).Contents (Elt F) → (⟨S8x64x1024, .f32⟩ : BufTy).Contents (Elt F)),
    binary main_v22 main_v24 main_v25 (addf : (⟨S8x64x1024, .f32⟩ : BufTy).Contents (Elt F) → (⟨S8x64x1024, .f32⟩ : BufTy).Contents (Elt F) → (⟨S8x64x1024, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The stages -/

/-- A look-up's index array with negative entries wrapped by the table's 64 rows, as start indices `[8, 64, 1]`. -/
def takeStart (idx : IVec S8x64 32) : IVec S8x64x1 32 :=
  broadcastInDim S8x64x1 ![0, 1] bcast_S8x64_S8x64x1_0_1
    (select (cmpi .slt idx (broadcastInDim S8x64 ![] bcast_S_S8x64 (constantI S_ 32 0#32)))
      (addi idx (broadcastInDim S8x64 ![] bcast_S_S8x64 (constantI S_ 32 64#32))) idx)

/-- Whether each start index names a row of the table, `0 ≤ i ≤ 63`, repeated along the row. -/
def takeInRange (st : IVec S8x64x1 32) : IVec S8x64x1024 1 :=
  broadcastInDim S8x64x1024 ![0, 1] bcast_S8x64_S8x64x1024_0_1
    (Host.reduce IntOp.andi
      (andi (cmpi .sge st (broadcastInDim S8x64x1 ![] bcast_S_S8x64x1 (constantI S_ 32 0#32)))
        (cmpi .sle st (broadcastInDim S8x64x1 ![0, 1, 2] bcast_S1x1x1_S8x64x1_0_1_2
          (broadcastInDim S1x1x1 ![2] bcast_S1_S1x1x1_2 (constantI S1 32 63#32)))))
      (constantI S_ 1 1#1) reducesTo_S8x64x1_S8x64_d2 h_S_)

/-- The look-up: the gathered rows where the index is in range, the fill elsewhere. -/
def take (tbl : FVec F S64x1024 .f32) (idx : IVec S8x64 32) : FVec F S8x64x1024 .f32 :=
  select (takeInRange (takeStart idx)) (Host.gather gather_S64x1024_S8x64x1_S8x64x1024_2_0_n_n_0_2_11024 tbl (takeStart idx))
    (broadcastInDim S8x64x1024 ![] bcast_S_S8x64x1024 (constant S_ .f32 0x7FC00000#32))

/-- The position indices: `s` at `(b, s)`. -/
def posIdx : IVec S8x64 32 := broadcastInDim S8x64 ![1] bcast_S64_S8x64_1 (iotaInDim S64 32 0)
/-- The token-type indices: `1` everywhere. -/
def tokIdx : IVec S8x64 32 := broadcastInDim S8x64 ![] bcast_S_S8x64 (constantI S_ 32 1#32)

/-- The array before normalisation. -/
def embedded (x : FVec F S8x1024x64 .f32) (pos tok : FVec F S64x1024 .f32) : FVec F S8x64x1024 .f32 :=
  addf (addf (transpose S8x64x1024 [0, 2, 1] x transposes_S8x1024x64_S8x64x1024_0_2_1) (take pos posIdx)) (take tok tokIdx)

/-- Row sums, kept as a column. -/
def rowSum (e : FVec F S8x64x1024 .f32) : FVec F S8x64x1 .f32 :=
  broadcastInDim S8x64x1 ![0, 1] bcast_S8x64_S8x64x1_0_1
    (Host.reduceAdd e (constant S_ .f32 0x00000000#32) reducesTo_S8x64x1024_S8x64_d2 h_S_)

/-- Row means. -/
def meanCol (e : FVec F S8x64x1024 .f32) : FVec F S8x64x1 .f32 :=
  Host.divf (rowSum e) (broadcastInDim S8x64x1 ![] bcast_S_S8x64x1 (constant S_ .f32 0x44800000#32))

/-- The rows minus their means. -/
def centred (e : FVec F S8x64x1024 .f32) : FVec F S8x64x1024 .f32 :=
  subf e (broadcastInDim S8x64x1024 ![0, 1, 2] bcast_S8x64x1_S8x64x1024_0_1_2 (meanCol e))

/-- The variance's divisor, `1024 - ddof` with `ddof = 0`. -/
def count : FVec F S_ .f32 := subf (constant S_ .f32 0x44800000#32) (sitofp .f32 (constantI S_ 32 0#32))

/-- Row variances, guarded by a positive count. -/
def varCol (e : FVec F S8x64x1024 .f32) : FVec F S8x64x1 .f32 :=
  select (broadcastInDim S8x64x1 ![] bcast_S_S8x64x1 (cmpf .ogt (count (F := F)) (constant S_ .f32 0x00000000#32)))
    (Host.divf (rowSum (mulf (centred e) (centred e))) (broadcastInDim S8x64x1 ![] bcast_S_S8x64x1 count))
    (broadcastInDim S8x64x1 ![] bcast_S_S8x64x1 (id (constant S_ .f32 0x7FC00000#32)))

/-- The normalised, scaled and shifted array. -/
def normed (e : FVec F S8x64x1024 .f32) (gam bet : FVec F S1024 .f32) : FVec F S8x64x1024 .f32 :=
  addf (mulf (Host.divf (centred e) (broadcastInDim S8x64x1024 ![0, 1, 2] bcast_S8x64x1_S8x64x1024_0_1_2
        (Host.sqrt (addf (varCol e) (broadcastInDim S8x64x1 ![] bcast_S_S8x64x1 (constant S_ .f32 0x2B8CBCCC#32))))))
      (broadcastInDim S8x64x1024 ![0, 1, 2] bcast_S1x1x1024_S8x64x1024_0_1_2 (broadcastInDim S1x1x1024 ![2] bcast_S1024_S1x1x1024_2 gam)))
    (broadcastInDim S8x64x1024 ![0, 1, 2] bcast_S1x1x1024_S8x64x1024_0_1_2 (broadcastInDim S1x1x1024 ![2] bcast_S1024_S1x1x1024_2 bet))

/-- The program's result as a term of its arguments. -/
def refOut (x : FVec F S8x1024x64 .f32) (pos tok : FVec F S64x1024 .f32) (gam bet : FVec F S1024 .f32) : FVec F S8x64x1024 .f32 :=
  normed (embedded x pos tok) gam bet

/-! ## The run -/

set_option maxRecDepth 8192 in
set_option maxHeartbeats 32000000 in
/-- On every device, from any memory with zero counters: every weakly fair execution terminates with the result at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.LnRun

end
-- ==== Proof.LibRow.lean ====
/-
  A vector placed on the last axis of a rank-3 array, and a sum over that axis, read at an index written by its
  coordinates — over abstract extents `a b c`.

  A cast keeps the row-major position of an element, and unit axes contribute nothing to it; a broadcast reads the
  operand with `0` on its unit axes; a sum over the last axis, read at `(i, j)`, ranges over the indices `(i, j, k)`.
-/
import Idealize.ShloMosaic.Lib.Pipeline.Value
import Idealize.ShloMosaic.Lib.ValueIdx
import Idealize.ShloMosaic.PureOps.Ideal.Laws

noncomputable section

namespace Cert.LibRow

open Idealize.ShloMosaic Idealize.ShloMosaic.ValueIdx

variable {α : Type}

/-- `[c]` viewed `[1, 1, c]`. -/
theorem cast_c_11c {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- `[1, 1, c]` repeated along the two leading axes. -/
theorem bcast_11c_abc {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (fun d => match d with
    | ⟨0, _⟩ => by show (0 : ℕ) = if (1 : ℕ) = 1 then 0 else i.val; rw [if_pos rfl]
    | ⟨1, _⟩ => by show (0 : ℕ) = if (1 : ℕ) = 1 then 0 else j.val; rw [if_pos rfl]
    | ⟨2, _⟩ => by show k.val = if c = 1 then 0 else k.val; have := k.isLt; split <;> omega)

/-- The index of `[a, b, c]` over `(i, j)` of `[a, b]` with `k` inserted on the last axis. -/
theorem lift_last {a b c : ℕ} (h : (⟨3, ![a, b, c]⟩ : Shape).Reduces [(2 : Fin 3)] ⟨2, ![a, b]⟩)
    (i : Fin a) (j : Fin b) (k : Fin c) : h.lift (ix2 i j) k = ix3 i j k := by
  funext d
  apply Fin.ext
  refine (h.lift_val (ix2 i j) k d).trans ?_
  unfold Shape.Reduces.liftVal
  match d with
  | ⟨0, _⟩ => rw [dif_neg (by show ¬((0 : ℕ) = 2); omega), dif_pos (by show (0 : ℕ) < 2; omega)]
  | ⟨1, _⟩ => rw [dif_neg (by show ¬((1 : ℕ) = 2); omega), dif_pos (by show (1 : ℕ) < 2; omega)]
  | ⟨2, _⟩ => rw [dif_pos (by show (2 : ℕ) = 2; rfl)]

/-- A float sum over the last axis of a rank-3 array, on the extended reals, at `(i, j)`: the sum over `k` of the entries
    `(i, j, k)` (the accumulator is the neutral zero, which the reading drops). -/
theorem sum_last {a b c : ℕ} (src : FVec Ideal ⟨3, ![a, b, c]⟩ .f32) (acc : BitVec 32)
    (h : (⟨3, ![a, b, c]⟩ : Shape).Reduces [(2 : Fin 3)] ⟨2, ![a, b]⟩) (hφ : FKind.Formats .f32)
    (hacc : acc = FKind.add.neutral .f32 hφ) (i : Fin a) (j : Fin b) :
    multiReduction .add [(2 : Fin 3)] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

end Cert.LibRow

end
-- ==== Proof.LnRefRead.lean ====
/-
  The reference's result read at an index: it is the row-wise layer normalisation of `Cert.LnSpec`, in the
  spelling that divides by the square root.

  The two look-ups use index arrays known in advance — the position `s` at `(b, s)` and the constant `1` —, every
  entry a small non-negative word: such a word is not negative, so it is not wrapped; it lies in `[0, 63]`, so the
  range mask is `1` everywhere and the fill is never selected; and the gather's clamp leaves it alone.  So the looked-up
  arrays are `pos[s, h]` and `tok[1, h]`.  The row sums read as sums over `k : Fin 1024`; the variance helper's
  divisor is `1024 - 0`, which is positive, so its guard selects the quotient.
-/
import proofs.«172034_g45715631898817_cont_8to1c4_635_6_alg».proof.Proof.LnRefRun
import proofs.«172034_g45715631898817_cont_8to1c4_635_6_alg».proof.Proof.LnSpec
import proofs.«172034_g45715631898817_cont_8to1c4_635_6_alg».proof.Proof.LibRow
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.LnRead

open Cert.ReferenceIdeal Cert.ReferenceIdeal.Gen Cert.ReferenceIdeal.LnRun Idealize.ShloMosaic
open Idealize.ShloMosaic.ValueIdx Cert.LnSpec

/-! ## Broadcasts read at an index -/

section Layout
variable {α : Type}

theorem bc_col (x : S8x64.Idx → α) (b : Fin 8) (s : Fin 64) (u : Fin 1) :
    broadcastInDim S8x64x1 ![0, 1] bcast_S8x64_S8x64x1_0_1 x (ix3 b s u) = x (ix2 b s) :=
  broadcastInDim_apply ![0, 1] _ x (ix3 b s u) (ix2 b s) (fun a => match a with
    | ⟨0, _⟩ => by show b.val = if (8 : ℕ) = 1 then 0 else b.val; rw [if_neg (by decide)]
    | ⟨1, _⟩ => by show s.val = if (64 : ℕ) = 1 then 0 else s.val; rw [if_neg (by decide)])

theorem bc_lanes (x : S8x64x1.Idx → α) (b : Fin 8) (s : Fin 64) (h : Fin 1024) :
    broadcastInDim S8x64x1024 ![0, 1, 2] bcast_S8x64x1_S8x64x1024_0_1_2 x (ix3 b s h) = x (ix3 b s (0 : Fin 1)) :=
  broadcastInDim_apply ![0, 1, 2] _ x (ix3 b s h) (ix3 b s (0 : Fin 1)) (fun a => match a with
    | ⟨0, _⟩ => by show b.val = if (8 : ℕ) = 1 then 0 else b.val; rw [if_neg (by decide)]
    | ⟨1, _⟩ => by show s.val = if (64 : ℕ) = 1 then 0 else s.val; rw [if_neg (by decide)]
    | ⟨2, _⟩ => by show (0 : ℕ) = if (1 : ℕ) = 1 then 0 else h.val; rw [if_pos rfl])

theorem bc_mask (x : S8x64.Idx → α) (b : Fin 8) (s : Fin 64) (h : Fin 1024) :
    broadcastInDim S8x64x1024 ![0, 1] bcast_S8x64_S8x64x1024_0_1 x (ix3 b s h) = x (ix2 b s) :=
  broadcastInDim_apply ![0, 1] _ x (ix3 b s h) (ix2 b s) (fun a => match a with
    | ⟨0, _⟩ => by show b.val = if (8 : ℕ) = 1 then 0 else b.val; rw [if_neg (by decide)]
    | ⟨1, _⟩ => by show s.val = if (64 : ℕ) = 1 then 0 else s.val; rw [if_neg (by decide)])

theorem bc_vec (g : S1024.Idx → α) (b : Fin 8) (s : Fin 64) (h : Fin 1024) :
    broadcastInDim S8x64x1024 ![0, 1, 2] bcast_S1x1x1024_S8x64x1024_0_1_2
      (broadcastInDim S1x1x1024 ![2] bcast_S1024_S1x1x1024_2 g) (ix3 b s h) = g (ix1 h) := by
  refine (broadcastInDim_apply ![0, 1, 2] _ _ (ix3 b s h) (ix3 (0 : Fin 1) (0 : Fin 1) h) (fun a => match a with
    | ⟨0, _⟩ => by show (0 : ℕ) = if (1 : ℕ) = 1 then 0 else b.val; rw [if_pos rfl]
    | ⟨1, _⟩ => by show (0 : ℕ) = if (1 : ℕ) = 1 then 0 else s.val; rw [if_pos rfl]
    | ⟨2, _⟩ => by show h.val = if (1024 : ℕ) = 1 then 0 else h.val; rw [if_neg (by decide)])).trans ?_
  exact broadcastInDim_apply ![2] _ g (ix3 (0 : Fin 1) (0 : Fin 1) h) (ix1 h) (fun a => match a with
    | ⟨0, _⟩ => by show h.val = if (1024 : ℕ) = 1 then 0 else h.val; rw [if_neg (by decide)])

theorem tr_apply (x : S8x1024x64.Idx → α) (b : Fin 8) (s : Fin 64) (k : Fin 1024) :
    transpose S8x64x1024 [0, 2, 1] x transposes_S8x1024x64_S8x64x1024_0_2_1 (ix3 b s k) = x (ix3 b k s) :=
  transpose_apply [0, 2, 1] x _ (ix3 b s k) (ix3 b k s) (fun d => match d with
    | ⟨0, _⟩ => rfl | ⟨1, _⟩ => rfl | ⟨2, _⟩ => rfl)

/-- The row gather at `(b, s, h)`: the table at the start index `st[b, s, 0]`, read signed and clamped into
    `[0, 63]`, and lane `h`. -/
theorem gather_row_apply (tbl : S64x1024.Idx → α) (st : IVec S8x64x1 32) (b : Fin 8) (s : Fin 64) (h : Fin 1024) :
    Host.gather gather_S64x1024_S8x64x1_S8x64x1024_2_0_n_n_0_2_11024 tbl st (ix3 b s h)
      = tbl (ix2 (⟨min (st (ix3 b s (0 : Fin 1))).toInt.toNat 63, by omega⟩ : Fin 64) h) := by
  unfold Host.gather
  refine congrArg tbl (funext fun a => Fin.ext ?_)
  match a with
  | ⟨0, _⟩ =>
    show gather_S64x1024_S8x64x1_S8x64x1024_2_0_n_n_0_2_11024.start (ix3 b s h) st 0 + gather_S64x1024_S8x64x1_S8x64x1024_2_0_n_n_0_2_11024.batchCoord (ix3 b s h) 0 + gather_S64x1024_S8x64x1_S8x64x1024_2_0_n_n_0_2_11024.offCoord (ix3 b s h) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ gather_S64x1024_S8x64x1_S8x64x1024_2_0_n_n_0_2_11024.startIndexMap from List.mem_singleton.mpr rfl)]
    have hsi : gather_S64x1024_S8x64x1_S8x64x1024_2_0_n_n_0_2_11024.siIdx (ix3 b s h) ⟨List.idxOf (0 : Fin 2) gather_S64x1024_S8x64x1_S8x64x1024_2_0_n_n_0_2_11024.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S64x1024_S8x64x1_S8x64x1024_2_0_n_n_0_2_11024.start (ix3 b s h) st 1 + gather_S64x1024_S8x64x1_S8x64x1024_2_0_n_n_0_2_11024.batchCoord (ix3 b s h) 1 + gather_S64x1024_S8x64x1_S8x64x1024_2_0_n_n_0_2_11024.offCoord (ix3 b s h) 1 = h.val
    have h1 : gather_S64x1024_S8x64x1_S8x64x1024_2_0_n_n_0_2_11024.start (ix3 b s h) st 1 = 0 := by
      unfold GatherDims.start; rw [dif_neg (by decide)]
    have h2 : gather_S64x1024_S8x64x1_S8x64x1024_2_0_n_n_0_2_11024.offCoord (ix3 b s h) 1 = h.val := by
      unfold GatherDims.offCoord; rw [dif_pos (by decide)]; rfl
    rw [GatherDims.batchCoord_eq_zero _ _ _ List.not_mem_nil, h1, h2]
    omega

end Layout

/-! ## Small words -/

/-- A word `n < 64` is not negative, lies in `[0, 63]`, and is its own clamp. -/
theorem small_word : ∀ n : Fin 64,
    IntOp.cmpi .slt (BitVec.ofNat 32 n.val) 0#32 = 0#1 ∧ IntOp.cmpi .sge (BitVec.ofNat 32 n.val) 0#32 = 1#1
      ∧ IntOp.cmpi .sle (BitVec.ofNat 32 n.val) 63#32 = 1#1 ∧ min (BitVec.ofNat 32 n.val).toInt.toNat 63 = n.val := by
  decide

/-- A conjunction over an axis of an array of ones, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  unfold Host.reduce
  rw [hinit]
  generalize ((List.finRange s.numel).filter fun n => h.drop (s.rowMajor.symm n) = j) = L
  induction L with
  | nil => rfl
  | cons a L ih => rw [List.foldl_cons, hx]; exact ih

/-! ## The look-ups -/

theorem posIdx_apply (b : Fin 8) (s : Fin 64) : posIdx (ix2 b s) = BitVec.ofNat 32 s.val := by
  unfold posIdx
  exact broadcastInDim_apply ![1] _ _ (ix2 b s) (ix1 s) (fun a => match a with
    | ⟨0, _⟩ => by show s.val = if (64 : ℕ) = 1 then 0 else s.val; rw [if_neg (by decide)])

theorem tokIdx_apply (b : Fin 8) (s : Fin 64) : tokIdx (ix2 b s) = BitVec.ofNat 32 (1 : Fin 64).val := rfl

/-- A small index is not wrapped. -/
theorem takeStart_apply (idx : IVec S8x64 32) (b : Fin 8) (s : Fin 64) (u : Fin 1) (n : Fin 64)
    (hn : idx (ix2 b s) = BitVec.ofNat 32 n.val) : takeStart idx (ix3 b s u) = BitVec.ofNat 32 n.val := by
  unfold takeStart
  rw [bc_col]
  show Scalar.select (IntOp.cmpi .slt (idx (ix2 b s)) 0#32) (IntOp.addi (idx (ix2 b s)) 64#32) (idx (ix2 b s)) = _
  rw [hn, (small_word n).1, select_zero]

/-- Small start indices are all in range. -/
theorem takeInRange_apply (st : IVec S8x64x1 32) (hst : ∀ i, ∃ n : Fin 64, st i = BitVec.ofNat 32 n.val)
    (b : Fin 8) (s : Fin 64) (h : Fin 1024) : takeInRange st (ix3 b s h) = 1#1 := by
  unfold takeInRange
  rw [bc_mask]
  refine reduce_andi_ones _ _ _ _ (fun i => ?_) rfl _
  obtain ⟨n, hn⟩ := hst i
  show IntOp.andi (IntOp.cmpi .sge (st i) 0#32) (IntOp.cmpi .sle (st i) 63#32) = 1#1
  rw [hn, (small_word n).2.1, (small_word n).2.2.1]
  rfl

/-- A look-up at small indices reads the table's row. -/
theorem take_apply (tbl : FVec Ideal S64x1024 .f32) (idx : IVec S8x64 32)
    (hidx : ∀ b s, ∃ n : Fin 64, idx (ix2 b s) = BitVec.ofNat 32 n.val) (b : Fin 8) (s : Fin 64) (h : Fin 1024)
    (n : Fin 64) (hn : idx (ix2 b s) = BitVec.ofNat 32 n.val) : take tbl idx (ix3 b s h) = tbl (ix2 n h) := by
  have hst : ∀ i, ∃ n : Fin 64, takeStart idx i = BitVec.ofNat 32 n.val := fun i => by
    obtain ⟨b', s', u', rfl⟩ : ∃ (b' : Fin 8) (s' : Fin 64) (u' : Fin 1), i = ix3 b' s' u' := ⟨i 0, i 1, i 2, eq_ix3 i⟩
    obtain ⟨n', hn'⟩ := hidx b' s'
    exact ⟨n', takeStart_apply idx b' s' u' n' hn'⟩
  unfold take
  show Scalar.select (takeInRange (takeStart idx) (ix3 b s h))
    (Host.gather gather_S64x1024_S8x64x1_S8x64x1024_2_0_n_n_0_2_11024 tbl (takeStart idx) (ix3 b s h)) _ = _
  rw [takeInRange_apply _ hst, select_one, gather_row_apply]
  refine congrArg (fun r => tbl (ix2 r h)) (Fin.ext ?_)
  show min (takeStart idx (ix3 b s (0 : Fin 1))).toInt.toNat 63 = n.val
  rw [takeStart_apply idx b s 0 n hn]
  exact (small_word n).2.2.2

/-! ## The float stages -/

theorem embedded_apply (x : FVec Ideal S8x1024x64 .f32) (pos tok : FVec Ideal S64x1024 .f32) (b : Fin 8) (s : Fin 64)
    (k : Fin 1024) : embedded x pos tok (ix3 b s k) = x (ix3 b k s) + pos (ix2 s k) + tok (ix2 (1 : Fin 64) k) := by
  unfold embedded
  show transpose S8x64x1024 [0, 2, 1] x transposes_S8x1024x64_S8x64x1024_0_2_1 (ix3 b s k) + take pos posIdx (ix3 b s k)
    + take tok tokIdx (ix3 b s k) = _
  rw [tr_apply, take_apply pos posIdx (fun b s => ⟨s, posIdx_apply b s⟩) b s k s (posIdx_apply b s),
    take_apply tok tokIdx (fun b s => ⟨1, tokIdx_apply b s⟩) b s k 1 (tokIdx_apply b s)]

theorem rowSum_apply (e : FVec Ideal S8x64x1024 .f32) (b : Fin 8) (s : Fin 64) (u : Fin 1) :
    rowSum e (ix3 b s u) = ∑ k : Fin 1024, e (ix3 b s k) := by
  unfold rowSum
  rw [bc_col, hostReduceAdd_apply,
    Ideal.hostReduceAdd_single reducesTo_S8x64x1024_S8x64_d2 (by decide : S8x64x1024.Reduces [2] S8x64) e _ (ix2 b s)]
  show Ideal.ofBits .f32 0x00000000#32 + _ = _
  rw [Ideal.ofBits_zero_f32, zero_add]
  exact Finset.sum_congr rfl fun k _ => congrArg e (Cert.LibRow.lift_last _ b s k)

theorem meanCol_apply (e : FVec Ideal S8x64x1024 .f32) (b : Fin 8) (s : Fin 64) (u : Fin 1) :
    meanCol e (ix3 b s u) = mean fun k => e (ix3 b s k) := by
  unfold meanCol
  show Ideal.div (rowSum e (ix3 b s u)) cN = _
  rw [rowSum_apply]; rfl

theorem centred_apply (e : FVec Ideal S8x64x1024 .f32) (b : Fin 8) (s : Fin 64) (h : Fin 1024) :
    centred e (ix3 b s h) = e (ix3 b s h) - mean fun k => e (ix3 b s k) := by
  unfold centred
  show e (ix3 b s h) - broadcastInDim S8x64x1024 ![0, 1, 2] bcast_S8x64x1_S8x64x1024_0_1_2 (meanCol e) (ix3 b s h) = _
  rw [bc_lanes, meanCol_apply]

/-- The variance's divisor is the row length. -/
theorem count_eq : count (F := Ideal) ix0 = cN := by
  show cN - (((0#32 : BitVec 32).toInt : ℝ) : EReal) = cN
  simp

theorem varCol_apply (e : FVec Ideal S8x64x1024 .f32) (b : Fin 8) (s : Fin 64) (u : Fin 1) :
    varCol e (ix3 b s u) = var fun k => e (ix3 b s k) := by
  have hc : broadcastInDim S8x64x1 ![] bcast_S_S8x64x1
      (cmpf .ogt (count (F := Ideal)) (constant S_ .f32 0x00000000#32)) (ix3 b s u) = 1#1 := by
    rw [broadcastInDim_scalar_apply]
    show Ideal.cmp .ogt (count (F := Ideal) ix0) (Ideal.ofBits .f32 0x00000000#32) = 1#1
    rw [count_eq, Ideal.ofBits_zero_f32]
    show BitVec.ofBool (decide (0 < cN)) = 1#1
    rw [decide_eq_true cN_pos]; rfl
  unfold varCol
  show Scalar.select (broadcastInDim S8x64x1 ![] bcast_S_S8x64x1
      (cmpf .ogt (count (F := Ideal)) (constant S_ .f32 0x00000000#32)) (ix3 b s u))
    (Ideal.div (rowSum (mulf (centred e) (centred e)) (ix3 b s u))
      (broadcastInDim S8x64x1 ![] bcast_S_S8x64x1 (count (F := Ideal)) (ix3 b s u))) _ = _
  rw [hc, select_one, rowSum_apply, broadcastInDim_scalar_apply, count_eq]
  unfold var
  refine congrArg (fun t => Ideal.div t cN) (Finset.sum_congr rfl fun k _ => ?_)
  show centred e (ix3 b s k) * centred e (ix3 b s k) = _
  rw [centred_apply]

theorem normed_apply (e : FVec Ideal S8x64x1024 .f32) (gam bet : FVec Ideal S1024 .f32) (b : Fin 8) (s : Fin 64)
    (h : Fin 1024) :
    normed e gam bet (ix3 b s h) = lnQ (fun k => e (ix3 b s k)) (gam (ix1 h)) (bet (ix1 h)) h := by
  unfold normed
  show Ideal.div (centred e (ix3 b s h))
      (broadcastInDim S8x64x1024 ![0, 1, 2] bcast_S8x64x1_S8x64x1024_0_1_2
        (Host.sqrt (addf (varCol e) (broadcastInDim S8x64x1 ![] bcast_S_S8x64x1 (constant S_ .f32 0x2B8CBCCC#32)))) (ix3 b s h))
      * broadcastInDim S8x64x1024 ![0, 1, 2] bcast_S1x1x1024_S8x64x1024_0_1_2
          (broadcastInDim S1x1x1024 ![2] bcast_S1024_S1x1x1024_2 gam) (ix3 b s h)
      + broadcastInDim S8x64x1024 ![0, 1, 2] bcast_S1x1x1024_S8x64x1024_0_1_2
          (broadcastInDim S1x1x1024 ![2] bcast_S1024_S1x1x1024_2 bet) (ix3 b s h) = _
  rw [centred_apply, bc_lanes, bc_vec, bc_vec]
  show Ideal.div _ (Ideal.sqrt (varCol e (ix3 b s (0 : Fin 1)) + cEps)) * _ + _ = _
  rw [varCol_apply]
  rfl

/-- The reference's result is `G` of its arguments. -/
theorem refOut_eq (x : FVec Ideal S8x1024x64 .f32) (pos tok : FVec Ideal S64x1024 .f32) (gam bet : FVec Ideal S1024 .f32) :
    refOut x pos tok gam bet = G x pos tok gam bet := by
  funext i
  obtain ⟨b, s, h, rfl⟩ : ∃ (b : Fin 8) (s : Fin 64) (h : Fin 1024), i = ix3 b s h := ⟨i 0, i 1, i 2, eq_ix3 i⟩
  rw [G_apply, ln_eq_lnQ]
  unfold refOut
  rw [normed_apply]
  refine congrArg (fun r => lnQ r (gam (ix1 h)) (bet (ix1 h)) h) (funext fun k => ?_)
  rw [embedded_apply]
  unfold emb
  rw [add_assoc]

end Cert.ReferenceIdeal.LnRead

end
-- ==== Proof.lean ====
/-
  The certificate of a fused embedding-and-layer-normalisation kernel against its jnp reference, on the extended reals.

  Both programs compute, for batch element `b`, sequence position `s` and hidden index `h`,
  `e[b, s, h] = x[b, h, s] + pos[s, h] + tok[1, h]`, then normalise each row `e[b, s, ·]` of 1024 entries:
  `(e - mean) · (var + ε)^(-1/2) · γ[h] + β[h]` with `mean = (∑ e) / 1024` and `var = (∑ (e - mean)²) / 1024`.
  The kernel does it per batch element on a transposed block, multiplying by the reciprocal square root; the reference
  looks the two tables up by gathers at indices known in advance, and divides by the square root.

  * `Proof/LnSpec.lean` — the row-wise normalisation in both spellings and why they agree: the radicand `var + ε`
    is strictly positive whatever the row holds, so `y · rsqrt v = y / sqrt v`; the two sums that build `e` differ
    only by associativity of the extended reals' addition.
  * `Proof/LnKernel.lean` — the kernel's output array is the specification of the argument arrays: each grid
    point writes the block of its batch element, and the eight blocks tile the array.
  * `Proof/LnRefRun.lean` — the reference's run as one composed term, its helper functions written out at their calls.
  * `Proof/LnRefRead.lean` — that term read at an index is the specification in the quotient spelling.
  * `Proof/LibRow.lean` — a sum over the last axis of a rank-3 array, by coordinates.

  The frames of the two kernel programs are the generated ones; the reference's frame is its run with the result
  dropped; the idealisation rewrote nothing, so there is nothing to preserve.  The precondition is not used: the
  equality holds for every extended-real input.
-/
import proofs.«172034_g45715631898817_cont_8to1c4_635_6_alg».proof.Defs
import proofs.«172034_g45715631898817_cont_8to1c4_635_6_alg».proof.Proof.Gen.Kernel
import proofs.«172034_g45715631898817_cont_8to1c4_635_6_alg».proof.Proof.Gen.Kernel.Skeleton
import proofs.«172034_g45715631898817_cont_8to1c4_635_6_alg».proof.Proof.Gen.Kernel.Launch
import proofs.«172034_g45715631898817_cont_8to1c4_635_6_alg».proof.Proof.Gen.Kernel.Points
import proofs.«172034_g45715631898817_cont_8to1c4_635_6_alg».proof.Proof.Gen.Kernel.Frame
import proofs.«172034_g45715631898817_cont_8to1c4_635_6_alg».proof.Proof.Gen.KernelIdeal
import proofs.«172034_g45715631898817_cont_8to1c4_635_6_alg».proof.Proof.Gen.KernelIdeal.Skeleton
import proofs.«172034_g45715631898817_cont_8to1c4_635_6_alg».proof.Proof.Gen.KernelIdeal.Launch
import proofs.«172034_g45715631898817_cont_8to1c4_635_6_alg».proof.Proof.Gen.KernelIdeal.Points
import proofs.«172034_g45715631898817_cont_8to1c4_635_6_alg».proof.Proof.Gen.KernelIdeal.Frame
import proofs.«172034_g45715631898817_cont_8to1c4_635_6_alg».proof.Proof.Gen.KernelIdeal.Value
import proofs.«172034_g45715631898817_cont_8to1c4_635_6_alg».proof.Proof.Gen.ReferenceIdeal
import proofs.«172034_g45715631898817_cont_8to1c4_635_6_alg».proof.Proof.Gen.Pre_finite_inputs
import proofs.«172034_g45715631898817_cont_8to1c4_635_6_alg».proof.Proof.LnSpec
import proofs.«172034_g45715631898817_cont_8to1c4_635_6_alg».proof.Proof.LnKernel
import proofs.«172034_g45715631898817_cont_8to1c4_635_6_alg».proof.Proof.LnRefRun
import proofs.«172034_g45715631898817_cont_8to1c4_635_6_alg».proof.Proof.LnRefRead
import Idealize.ShloMosaic.Adequacy
import Idealize.ShloMosaic.Init

noncomputable section

namespace Cert.Proof

open Idealize.ShloMosaic Idealize.ShloMosaic.TcCoe Idealize.SL.Sem Cert.LnSpec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.LnRun.run (F := Ideal) m ρ)

/-- The idealisation is the kernel's own text read on the extended reals. -/
theorem preserves : Cert.preserves_Kernel_KernelIdeal := trivial

/-- Both result arrays are the specification `G` of the argument arrays, on which the two memories agree. -/
theorem algebraic : Cert.algebraic_KernelIdeal_ReferenceIdeal := by
  intro m ρ m' ρ' _ hagree
  refine ⟨_, Cert.KernelIdeal.LnValue.run m ρ, ?_⟩
  refine (θ_run Cert.ReferenceIdeal.defs _ _).mono (fun _ h c => ⟨(h c).1.trans ?_, (h c).2⟩)
    (Cert.ReferenceIdeal.LnRun.run (F := Ideal) m' ρ')
  rw [Cert.ReferenceIdeal.LnRead.refOut_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
